-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x3000000 : Shape := ⟨2, ![2, 3000000]⟩
abbrev S3x16 : Shape := ⟨2, ![3, 16]⟩
abbrev S16x16 : Shape := ⟨2, ![16, 16]⟩
abbrev S16x3 : Shape := ⟨2, ![16, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16x16 : S_.BroadcastsInDim S16x16 (![] : Fin 0 → Fin S16x16.rank)
  reducesTo_S16x16_S_d0_1 : S16x16.ReducesTo [0, 1] S_
  bcast_S_S16x3 : S_.BroadcastsInDim S16x3 (![] : Fin 0 → Fin S16x3.rank)
  reducesTo_S16x3_S_d0_1 : S16x3.ReducesTo [0, 1] S_

variable [Facts]

def fn_part1 {F : FTy → Type} [FloatOps F] (main_arg5 : FVec F S3x16 .f32) (main_arg6 : FVec F S16x16 .f32) (main_arg7 : FVec F S16x3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S3x16 .f32 := Host.absf main_arg5
  let main_cst_6 : FVec F S_ .f32 := constant S_ .f32 0x7F800000#32
  let main_v20 : FVec F S3x16 .f32 := broadcastInDim S3x16 ![] bcast_S_S3x16 main_cst_6
  let main_v21 : IVec S3x16 1 := cmpf .olt main_v19 main_v20
  let main_c_7 : IVec S_ 1 := constantI S_ 1 1#1
  let main_v22 : IVec S_ 1 := (fun x v => Host.reduce IntOp.andi x v reducesTo_S3x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16x3 .f32 := Host.absf main_arg7
  let main_cst_10 : FVec F S_ .f32 := constant S_ .f32 0x7F800000#32
  let main_v30 : FVec F S16x3 .f32 := broadcastInDim S16x3 ![] bcast_S_S16x3 main_cst_10
  let main_v31 : IVec S16x3 1 := cmpf .olt main_v29 main_v30
  let main_c_11 : IVec S_ 1 := constantI S_ 1 1#1
  let main_v32 : IVec S_ 1 := (fun x v => Host.reduce IntOp.andi x v reducesTo_S16x3_S_d0_1 h_S_) main_v31 main_c_11
  let main_v33 : IVec S_ 1 := andi main_v28 main_v32
  main_v33

def fn {F : FTy → Type} [FloatOps F] (main_arg0 : FVec F S1000000x3 .f32) (main_arg1 : IVec S2x3000000 32) (main_arg2 : FVec F S3x16 .f32) (main_arg3 : FVec F S16x16 .f32) (main_arg4 : FVec F S16x3 .f32) (main_arg5 : FVec F S3x16 .f32) (main_arg6 : FVec F S16x16 .f32) (main_arg7 : FVec F S16x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_arg6 main_arg7 main_v13 main_v16
-- ==== Kernel.lean ====
abbrev S1000000x3 : Shape := ⟨2, ![1000000, 3]⟩
abbrev S2x3000000 : Shape := ⟨2, ![2, 3000000]⟩
abbrev S3x16 : Shape := ⟨2, ![3, 16]⟩
abbrev S16x16 : Shape := ⟨2, ![16, 16]⟩
abbrev S16x3 : Shape := ⟨2, ![16, 3]⟩
abbrev S1x3000000 : Shape := ⟨2, ![1, 3000000]⟩
abbrev S3000000 : Shape := ⟨1, ![3000000]⟩
abbrev S_ : Shape := ⟨0, ![]⟩
abbrev S1000000 : Shape := ⟨1, ![1000000]⟩
abbrev S3000000x1 : Shape := ⟨2, ![3000000, 1]⟩
abbrev S8000x3 : Shape := ⟨2, ![8000, 3]⟩
abbrev S8000x16 : Shape := ⟨2, ![8000, 16]⟩
abbrev S3000000x3 : Shape := ⟨2, ![3000000, 3]⟩

abbrev nBuf : Space → Nat
  | .hbm => 104
  | .vmem => 14
  | .smem => 0
  | _ => 0

abbrev bufTy : (tb : Table) → Fin (tcTables nBuf tb) → BufTy
  | .hbm, ⟨0, _⟩ => ⟨S1000000x3, .f32⟩
  | .hbm, ⟨1, _⟩ => ⟨S2x3000000, .i32⟩
  | .hbm, ⟨2, _⟩ => ⟨S3x16, .f32⟩
  | .hbm, ⟨3, _⟩ => ⟨S16x16, .f32⟩
  | .hbm, ⟨4, _⟩ => ⟨S16x3, .f32⟩
  | .hbm, ⟨5, _⟩ => ⟨S3x16, .f32⟩
  | .hbm, ⟨6, _⟩ => ⟨S16x16, .f32⟩
  | .hbm, ⟨7, _⟩ => ⟨S16x3, .f32⟩
  | .hbm, ⟨8, _⟩ => ⟨S1x3000000, .i32⟩
  | .hbm, ⟨9, _⟩ => ⟨S3000000, .i32⟩
  | .hbm, ⟨10, _⟩ => ⟨S1x3000000, .i32⟩
  | .hbm, ⟨11, _⟩ => ⟨S3000000, .i32⟩
  | .hbm, ⟨12, _⟩ => ⟨S_, .f32⟩
  | .hbm, ⟨13, _⟩ => ⟨S3000000, .f32⟩
  | .hbm, ⟨14, _⟩ => ⟨S_, .f32⟩
  | .hbm, ⟨15, _⟩ => ⟨S1000000, .f32⟩
  | .hbm, ⟨16, _⟩ => ⟨S3000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .i1⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S_, .i32⟩
  | .hbm, ⟨30, _⟩ => ⟨S3000000, .i32⟩
  | .hbm, ⟨31, _⟩ => ⟨S3000000, .i1⟩
  | .hbm, ⟨32, _⟩ => ⟨S_, .i32⟩
  | .hbm, ⟨33, _⟩ => ⟨S3000000, .i32⟩
  | .hbm, ⟨34, _⟩ => ⟨S3000000, .i32⟩
  | .hbm, ⟨35, _⟩ => ⟨S3000000, .i32⟩
  | .hbm, ⟨36, _⟩ => ⟨S3000000x1, .i32⟩
  | .hbm, ⟨37, _⟩ => ⟨S3000000, .f32⟩
  | .hbm, ⟨38, _⟩ => ⟨S_, .i32⟩
  | .hbm, ⟨39, _⟩ => ⟨S3000000, .i32⟩
  | .hbm, ⟨40, _⟩ => ⟨S3000000, .i1⟩
  | .hbm, ⟨41, _⟩ => ⟨S_, .i32⟩
  | .hbm, ⟨42, _⟩ => ⟨S3000000, .i32⟩
  | .hbm, ⟨43, _⟩ => ⟨S3000000, .i32⟩
  | .hbm, ⟨44, _⟩ => ⟨S3000000, .i32⟩
  | .hbm, ⟨45, _⟩ => ⟨S3000000x1, .i32⟩
  | .hbm, ⟨46, _⟩ => ⟨S3000000, .f32⟩
  | .hbm, ⟨47, _⟩ => ⟨S3000000, .f32⟩
  | .hbm, ⟨48, _⟩ => ⟨S1000000x3, .f32⟩
  | .hbm, ⟨49, _⟩ => ⟨S3000000x1, .f32⟩
  | .hbm, ⟨50, _⟩ => ⟨S_, .i32⟩
  | .hbm, ⟨51, _⟩ => ⟨S3000000, .i32⟩
  | .hbm, ⟨52, _⟩ => ⟨S3000000, .i1⟩
  | .hbm, ⟨53, _⟩ => ⟨S_, .i32⟩
  | .hbm, ⟨54, _⟩ => ⟨S3000000, .i32⟩
  | .hbm, ⟨55, _⟩ => ⟨S3000000, .i32⟩
  | .hbm, ⟨56, _⟩ => ⟨S3000000, .i32⟩
  | .hbm, ⟨57, _⟩ => ⟨S3000000x1, .i32⟩
  | .hbm, ⟨58, _⟩ => ⟨S3000000x3, .f32⟩
  | .hbm, ⟨59, _⟩ => ⟨S_, .i32⟩
  | .hbm, ⟨60, _⟩ => ⟨S3000000, .i32⟩
  | .hbm, ⟨61, _⟩ => ⟨S3000000, .i1⟩
  | .hbm, ⟨62, _⟩ => ⟨S_, .i32⟩
  | .hbm, ⟨63, _⟩ => ⟨S3000000, .i32⟩
  | .hbm, ⟨64, _⟩ => ⟨S3000000, .i32⟩
  | .hbm, ⟨65, _⟩ => ⟨S3000000, .i32⟩
  | .hbm, ⟨66, _⟩ => ⟨S3000000x1, .i32⟩
  | .hbm, ⟨67, _⟩ => ⟨S3000000x3, .f32⟩
  | .hbm, ⟨68, _⟩ => ⟨S3000000x3, .f32⟩
  | .hbm, ⟨69, _⟩ => ⟨S3000000x3, .f32⟩
  | .hbm, ⟨70, _⟩ => ⟨S3000000x3, .f32⟩
  | .hbm, ⟨71, _⟩ => ⟨S_, .f32⟩
  | .hbm, ⟨72, _⟩ => ⟨S1000000x3, .f32⟩
  | .hbm, ⟨73, _⟩ => ⟨S3000000x1, .i32⟩
  | .hbm, ⟨74, _⟩ => ⟨S1000000x3, .f32⟩
  | .hbm, ⟨75, _⟩ => ⟨S1000000x3, .f32⟩
  | .hbm, ⟨76, _⟩ => ⟨S1000000x3, .f32⟩
  | .hbm, ⟨77, _⟩ => ⟨S3000000x1, .f32⟩
  | .hbm, ⟨78, _⟩ => ⟨S_, .i32⟩
  | .hbm, ⟨79, _⟩ => ⟨S3000000, .i32⟩
  | .hbm, ⟨80, _⟩ => ⟨S3000000, .i1⟩
  | .hbm, ⟨81, _⟩ => ⟨S_, .i32⟩
  | .hbm, ⟨82, _⟩ => ⟨S3000000, .i32⟩
  | .hbm, ⟨83, _⟩ => ⟨S3000000, .i32⟩
  | .hbm, ⟨84, _⟩ => ⟨S3000000, .i32⟩
  | .hbm, ⟨85, _⟩ => ⟨S3000000x1, .i32⟩
  | .hbm, ⟨86, _⟩ => ⟨S3000000x3, .f32⟩
  | .hbm, ⟨87, _⟩ => ⟨S_, .i32⟩
  | .hbm, ⟨88, _⟩ => ⟨S3000000, .i32⟩
  | .hbm, ⟨89, _⟩ => ⟨S3000000, .i1⟩
  | .hbm, ⟨90, _⟩ => ⟨S_, .i32⟩
  | .hbm, ⟨91, _⟩ => ⟨S3000000, .i32⟩
  | .hbm, ⟨92, _⟩ => ⟨S3000000, .i32⟩
  | .hbm, ⟨93, _⟩ => ⟨S3000000, .i32⟩
  | .hbm, ⟨94, _⟩ => ⟨S3000000x1, .i32⟩
  | .hbm, ⟨95, _⟩ => ⟨S3000000x3, .f32⟩
  | .hbm, ⟨96, _⟩ => ⟨S3000000x3, .f32⟩
  | .hbm, ⟨97, _⟩ => ⟨S3000000x3, .f32⟩
  | .hbm, ⟨98, _⟩ => ⟨S3000000x3, .f32⟩
  | .hbm, ⟨99, _⟩ => ⟨S_, .f32⟩
  | .hbm, ⟨100, _⟩ => ⟨S1000000x3, .f32⟩
  | .hbm, ⟨101, _⟩ => ⟨S3000000x1, .i32⟩
  | .hbm, ⟨102, _⟩ => ⟨S1000000x3, .f32⟩
  | .hbm, ⟨103, _⟩ => ⟨S1000000x3, .f32⟩
  | .local _ .vmem, ⟨0, _⟩ => ⟨S8000x3, .f32⟩
  | .local _ .vmem, ⟨1, _⟩ => ⟨S8000x3, .f32⟩
  | .local _ .vmem, ⟨2, _⟩ => ⟨S3x16, .f32⟩
  | .local _ .vmem, ⟨3, _⟩ => ⟨S16x16, .f32⟩
  | .local _ .vmem, ⟨4, _⟩ => ⟨S16x3, .f32⟩
  | .local _ .vmem, ⟨5, _⟩ => ⟨S8000x3, .f32⟩
  | .local _ .vmem, ⟨6, _⟩ => ⟨S8000x3, .f32⟩
  | .local _ .vmem, ⟨7, _⟩ => ⟨S8000x3, .f32⟩
  | .local _ .vmem, ⟨8, _⟩ => ⟨S8000x3, .f32⟩
  | .local _ .vmem, ⟨9, _⟩ => ⟨S3x16, .f32⟩
  | .local _ .vmem, ⟨10, _⟩ => ⟨S16x16, .f32⟩
  | .local _ .vmem, ⟨11, _⟩ => ⟨S16x3, .f32⟩
  | .local _ .vmem, ⟨12, _⟩ => ⟨S8000x3, .f32⟩
  | .local _ .vmem, ⟨13, _⟩ => ⟨S8000x3, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  bcast_S_S3000000 : S_.BroadcastsInDim S3000000 (![] : Fin 0 → Fin S3000000.rank)
  bcast_S_S1000000 : S_.BroadcastsInDim S1000000 (![] : Fin 0 → Fin S1000000.rank)
  bcast_S3000000_S3000000x1_0 : S3000000.BroadcastsInDim S3000000x1 (![0] : Fin 1 → Fin S3000000x1.rank)
  inb_S8000x3_S8000x3_0_0 : ∀ a, (![0, 0] : Fin 2 → Nat) a + S8000x3.size a ≤ S8000x3.size a
  h_S8000x3 : 0 < S8000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S16x16_S16x16_0_0 : ∀ a, (![0, 0] : Fin 2 → Nat) a + S16x16.size a ≤ S16x16.size a
  h_S16x16 : 0 < S16x16.numel
  inb_S16x3_S16x3_0_0 : ∀ a, (![0, 0] : Fin 2 → Nat) a + S16x3.size a ≤ S16x3.size a
  h_S16x3 : 0 < S16x3.numel
  bcast_S3000000x1_S3000000x3_0_1 : S3000000x1.BroadcastsInDim S3000000x3 (![0, 1] : Fin 2 → Fin S3000000x3.rank)
  bcast_S_S1000000x3 : S_.BroadcastsInDim S1000000x3 (![] : Fin 0 → Fin S1000000x3.rank)
  shapeCasts_S8000x3_S8000x3 : S8000x3.ShapeCasts S8000x3
  scatter_S1000000_S3000000x1_S3000000_n_0_0_1_wf : ScatterDims.WF S1000000 S3000000x1 S3000000 [] [0] [0] 1
  gather_S1000000_S3000000x1_S3000000_n_0_n_n_0_1_1_wf : GatherDims.WF S1000000 S3000000x1 S3000000 [] [0] [] [0] [] 1 ![1]
  dot_S8000x3_S3x16_S8000x16_1_0_0_1_n_n_wf : DotDims.WF S8000x3 S3x16 S8000x16 [1] [0] [0] [1] [] []
  dot_S8000x16_S16x16_S8000x16_1_0_0_1_n_n_wf : DotDims.WF S8000x16 S16x16 S8000x16 [1] [0] [0] [1] [] []
  dot_S8000x16_S16x3_S8000x3_1_0_0_1_n_n_wf : DotDims.WF S8000x16 S16x3 S8000x3 [1] [0] [0] [1] [] []
  gather_S1000000x3_S3000000x1_S3000000x3_1_0_n_n_0_1_13_wf : GatherDims.WF S1000000x3 S3000000x1 S3000000x3 [1] [0] [] [0] [] 1 ![1, 3]
  scatter_S1000000x3_S3000000x1_S3000000x3_1_0_0_1_wf : ScatterDims.WF S1000000x3 S3000000x1 S3000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1000000x3.size a
  hwx0_0 : ∀ i : grid0.Coords, EltTy.bits .f32 = 32 ∨ (Rect.block (s := S1000000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x3.size a ≤ S16x3.size a
  hwx0_3 : ∀ i : grid0.Coords, EltTy.bits .f32 = 32 ∨ (Rect.block (s := S16x3) S16x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x3.size a ≤ S1000000x3.size a
  hwx0_4 : ∀ i : grid0.Coords, EltTy.bits .f32 = 32 ∨ (Rect.block (s := S1000000x3) S8000x3.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x3.size a ≤ S1000000x3.size a
  hwx1_0 : ∀ i : grid1.Coords, EltTy.bits .f32 = 32 ∨ (Rect.block (s := S1000000x3) S8000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x16.size a ≤ S3x16.size a
  hwx1_1 : ∀ i : grid1.Coords, EltTy.bits .f32 = 32 ∨ (Rect.block (s := S3x16) S3x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x3.size a ≤ S16x3.size a
  hwx1_3 : ∀ i : grid1.Coords, EltTy.bits .f32 = 32 ∨ (Rect.block (s := S16x3) S16x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x3.size a ≤ S1000000x3.size a
  hwx1_4 : ∀ i : grid1.Coords, EltTy.bits .f32 = 32 ∨ (Rect.block (s := S1000000x3) S8000x3.size (cc1_transform_4 i) (hinb1_4 i)).WholeWords (EltTy.packing .f32)

variable [Facts₀]

def scatter_S1000000_S3000000x1_S3000000_n_0_0_1 : ScatterDims S1000000 S3000000x1 S3000000 where
  updateWindowDims := []
  insertedWindowDims := [0]
  scatterDimsToOperandDims := [0]
  indexVectorDim := 1
  wf := scatter_S1000000_S3000000x1_S3000000_n_0_0_1_wf
def gather_S1000000_S3000000x1_S3000000_n_0_n_n_0_1_1 : GatherDims S1000000 S3000000x1 S3000000 where
  offsetDims := []
  collapsedSliceDims := [0]
  operandBatchingDims := []
  startIndicesBatchingDims := []
  startIndexMap := [0]
  indexVectorDim := 1
  sliceSizes := ![1]
  wf := gather_S1000000_S3000000x1_S3000000_n_0_n_n_0_1_1_wf
def dot_S8000x3_S3x16_S8000x16_1_0_0_1_n_n : DotDims S8000x3 S3x16 S8000x16 where
  lhsContracting := [1]
  rhsContracting := [0]
  lhsNonContracting := [0]
  rhsNonContracting := [1]
  lhsBatch := []
  rhsBatch := []
  wf := dot_S8000x3_S3x16_S8000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x16_S16x3_S8000x3_1_0_0_1_n_n : DotDims S8000x16 S16x3 S8000x3 where
  lhsContracting := [1]
  rhsContracting := [0]
  lhsNonContracting := [0]
  rhsNonContracting := [1]
  lhsBatch := []
  rhsBatch := []
  wf := dot_S8000x16_S16x3_S8000x3_1_0_0_1_n_n_wf
def gather_S1000000x3_S3000000x1_S3000000x3_1_0_n_n_0_1_13 : GatherDims S1000000x3 S3000000x1 S3000000x3 where
  offsetDims := [1]
  collapsedSliceDims := [0]
  operandBatchingDims := []
  startIndicesBatchingDims := []
  startIndexMap := [0]
  indexVectorDim := 1
  sliceSizes := ![1, 3]
  wf := gather_S1000000x3_S3000000x1_S3000000x3_1_0_n_n_0_1_13_wf
def scatter_S1000000x3_S3000000x1_S3000000x3_1_0_0_1 : ScatterDims S1000000x3 S3000000x1 S3000000x3 where
  updateWindowDims := [1]
  insertedWindowDims := [0]
  scatterDimsToOperandDims := [0]
  indexVectorDim := 1
  wf := scatter_S1000000x3_S3000000x1_S3000000x3_1_0_0_1_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S8000x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v51) S8000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S3x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S8000x3.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x3 : Shape := ⟨2, ![1000000, 3]⟩
abbrev S2x3000000 : Shape := ⟨2, ![2, 3000000]⟩
abbrev S3x16 : Shape := ⟨2, ![3, 16]⟩
abbrev S16x16 : Shape := ⟨2, ![16, 16]⟩
abbrev S16x3 : Shape := ⟨2, ![16, 3]⟩
abbrev S1x3000000 : Shape := ⟨2, ![1, 3000000]⟩
abbrev S3000000 : Shape := ⟨1, ![3000000]⟩
abbrev S1000000x16 : Shape := ⟨2, ![1000000, 16]⟩
abbrev S_ : Shape := ⟨0, ![]⟩
abbrev S1000000 : Shape := ⟨1, ![1000000]⟩
abbrev S3000000x1 : Shape := ⟨2, ![3000000, 1]⟩
abbrev S3000000x3 : Shape := ⟨2, ![3000000, 3]⟩

abbrev nBuf : Space → Nat
  | .hbm => 176
  | .vmem => 0
  | .smem => 0
  | _ => 0

abbrev hbmTy0_0 (i : Nat) : BufTy := match i % 128 with
  | 0 => ⟨S1000000x3, .f32⟩
  | 1 => ⟨S2x3000000, .i32⟩
  | 2 => ⟨S3x16, .f32⟩
  | 3 => ⟨S16x16, .f32⟩
  | 4 => ⟨S16x3, .f32⟩
  | 5 => ⟨S3x16, .f32⟩
  | 6 => ⟨S16x16, .f32⟩
  | 7 => ⟨S16x3, .f32⟩
  | 8 => ⟨S1x3000000, .i32⟩
  | 9 => ⟨S3000000, .i32⟩
  | 10 => ⟨S1x3000000, .i32⟩
  | 11 => ⟨S3000000, .i32⟩
  | 12 => ⟨S1000000x16, .f32⟩
  | 13 => ⟨S_, .f32⟩
  | 14 => ⟨S_, .f32⟩
  | 15 => ⟨S1000000x16, .f32⟩
  | 16 => ⟨S1000000x16, .i1⟩
  | 17 => ⟨S_, .f32⟩
  | 18 => ⟨S1000000x16, .f32⟩
  | 19 => ⟨S1000000x16, .f32⟩
  | 20 => ⟨S1000000x16, .f32⟩
  | 21 => ⟨S1000000x16, .f32⟩
  | 22 => ⟨S_, .f32⟩
  | 23 => ⟨S_, .f32⟩
  | 24 => ⟨S1000000x16, .f32⟩
  | 25 => ⟨S1000000x16, .i1⟩
  | 26 => ⟨S_, .f32⟩
  | 27 => ⟨S1000000x16, .f32⟩
  | 28 => ⟨S1000000x16, .f32⟩
  | 29 => ⟨S1000000x16, .f32⟩
  | 30 => ⟨S1000000x3, .f32⟩
  | 31 => ⟨S_, .f32⟩
  | 32 => ⟨S3000000, .f32⟩
  | 33 => ⟨S_, .f32⟩
  | 34 => ⟨S1000000, .f32⟩
  | 35 => ⟨S3000000x1, .i32⟩
  | 36 => ⟨S1000000, .f32⟩
  | 37 => ⟨S_, .f32⟩
  | 38 => ⟨S1000000, .f32⟩
  | 39 => ⟨S1000000, .i1⟩
  | 40 => ⟨S_, .f32⟩
  | 41 => ⟨S1000000, .f32⟩
  | 42 => ⟨S1000000, .f32⟩
  | 43 => ⟨S1000000, .f32⟩
  | 44 => ⟨S_, .f32⟩
  | 45 => ⟨S_, .f32⟩
  | 46 => ⟨S1000000, .f32⟩
  | 47 => ⟨S1000000, .f32⟩
  | 48 => ⟨S_, .i32⟩
  | 49 => ⟨S3000000, .i32⟩
  | 50 => ⟨S3000000, .i1⟩
  | 51 => ⟨S_, .i32⟩
  | 52 => ⟨S3000000, .i32⟩
  | 53 => ⟨S3000000, .i32⟩
  | 54 => ⟨S3000000, .i32⟩
  | 55 => ⟨S3000000x1, .i32⟩
  | 56 => ⟨S3000000, .f32⟩
  | 57 => ⟨S_, .i32⟩
  | 58 => ⟨S3000000, .i32⟩
  | 59 => ⟨S3000000, .i1⟩
  | 60 => ⟨S_, .i32⟩
  | 61 => ⟨S3000000, .i32⟩
  | 62 => ⟨S3000000, .i32⟩
  | 63 => ⟨S3000000, .i32⟩
  | 64 => ⟨S3000000x1, .i32⟩
  | 65 => ⟨S3000000, .f32⟩
  | 66 => ⟨S3000000, .f32⟩
  | 67 => ⟨S3000000x1, .f32⟩
  | 68 => ⟨S_, .i32⟩
  | 69 => ⟨S3000000, .i32⟩
  | 70 => ⟨S3000000, .i1⟩
  | 71 => ⟨S_, .i32⟩
  | 72 => ⟨S3000000, .i32⟩
  | 73 => ⟨S3000000, .i32⟩
  | 74 => ⟨S3000000, .i32⟩
  | 75 => ⟨S3000000x1, .i32⟩
  | 76 => ⟨S3000000x3, .f32⟩
  | 77 => ⟨S_, .i32⟩
  | 78 => ⟨S3000000, .i32⟩
  | 79 => ⟨S3000000, .i1⟩
  | 80 => ⟨S_, .i32⟩
  | 81 => ⟨S3000000, .i32⟩
  | 82 => ⟨S3000000, .i32⟩
  | 83 => ⟨S3000000, .i32⟩
  | 84 => ⟨S3000000x1, .i32⟩
  | 85 => ⟨S3000000x3, .f32⟩
  | 86 => ⟨S3000000x3, .f32⟩
  | 87 => ⟨S3000000x3, .f32⟩
  | 88 => ⟨S3000000x3, .f32⟩
  | 89 => ⟨S_, .f32⟩
  | 90 => ⟨S1000000x3, .f32⟩
  | 91 => ⟨S3000000x1, .i32⟩
  | 92 => ⟨S1000000x3, .f32⟩
  | 93 => ⟨S1000000x3, .f32⟩
  | 94 => ⟨S1000000x16, .f32⟩
  | 95 => ⟨S_, .f32⟩
  | 96 => ⟨S_, .f32⟩
  | 97 => ⟨S1000000x16, .f32⟩
  | 98 => ⟨S1000000x16, .i1⟩
  | 99 => ⟨S_, .f32⟩
  | 100 => ⟨S1000000x16, .f32⟩
  | 101 => ⟨S1000000x16, .f32⟩
  | 102 => ⟨S1000000x16, .f32⟩
  | 103 => ⟨S1000000x16, .f32⟩
  | 104 => ⟨S_, .f32⟩
  | 105 => ⟨S_, .f32⟩
  | 106 => ⟨S1000000x16, .f32⟩
  | 107 => ⟨S1000000x16, .i1⟩
  | 108 => ⟨S_, .f32⟩
  | 109 => ⟨S1000000x16, .f32⟩
  | 110 => ⟨S1000000x16, .f32⟩
  | 111 => ⟨S1000000x16, .f32⟩
  | 112 => ⟨S1000000x3, .f32⟩
  | 113 => ⟨S_, .f32⟩
  | 114 => ⟨S3000000, .f32⟩
  | 115 => ⟨S_, .f32⟩
  | 116 => ⟨S1000000, .f32⟩
  | 117 => ⟨S3000000x1, .i32⟩
  | 118 => ⟨S1000000, .f32⟩
  | 119 => ⟨S_, .f32⟩
  | 120 => ⟨S1000000, .f32⟩
  | 121 => ⟨S1000000, .i1⟩
  | 122 => ⟨S_, .f32⟩
  | 123 => ⟨S1000000, .f32⟩
  | 124 => ⟨S1000000, .f32⟩
  | 125 => ⟨S1000000, .f32⟩
  | 126 => ⟨S_, .f32⟩
  | 127 => ⟨S_, .f32⟩
  | _ => ⟨S1000000x3, .f32⟩

abbrev hbmTy0_1 (i : Nat) : BufTy := match i % 128 with
  | 0 => ⟨S1000000, .f32⟩
  | 1 => ⟨S1000000, .f32⟩
  | 2 => ⟨S_, .i32⟩
  | 3 => ⟨S3000000, .i32⟩
  | 4 => ⟨S3000000, .i1⟩
  | 5 => ⟨S_, .i32⟩
  | 6 => ⟨S3000000, .i32⟩
  | 7 => ⟨S3000000, .i32⟩
  | 8 => ⟨S3000000, .i32⟩
  | 9 => ⟨S3000000x1, .i32⟩
  | 10 => ⟨S3000000, .f32⟩
  | 11 => ⟨S_, .i32⟩
  | 12 => ⟨S3000000, .i32⟩
  | 13 => ⟨S3000000, .i1⟩
  | 14 => ⟨S_, .i32⟩
  | 15 => ⟨S3000000, .i32⟩
  | 16 => ⟨S3000000, .i32⟩
  | 17 => ⟨S3000000, .i32⟩
  | 18 => ⟨S3000000x1, .i32⟩
  | 19 => ⟨S3000000, .f32⟩
  | 20 => ⟨S3000000, .f32⟩
  | 21 => ⟨S3000000x1, .f32⟩
  | 22 => ⟨S_, .i32⟩
  | 23 => ⟨S3000000, .i32⟩
  | 24 => ⟨S3000000, .i1⟩
  | 25 => ⟨S_, .i32⟩
  | 26 => ⟨S3000000, .i32⟩
  | 27 => ⟨S3000000, .i32⟩
  | 28 => ⟨S3000000, .i32⟩
  | 29 => ⟨S3000000x1, .i32⟩
  | 30 => ⟨S3000000x3, .f32⟩
  | 31 => ⟨S_, .i32⟩
  | 32 => ⟨S3000000, .i32⟩
  | 33 => ⟨S3000000, .i1⟩
  | 34 => ⟨S_, .i32⟩
  | 35 => ⟨S3000000, .i32⟩
  | 36 => ⟨S3000000, .i32⟩
  | 37 => ⟨S3000000, .i32⟩
  | 38 => ⟨S3000000x1, .i32⟩
  | 39 => ⟨S3000000x3, .f32⟩
  | 40 => ⟨S3000000x3, .f32⟩
  | 41 => ⟨S3000000x3, .f32⟩
  | 42 => ⟨S3000000x3, .f32⟩
  | 43 => ⟨S_, .f32⟩
  | 44 => ⟨S1000000x3, .f32⟩
  | 45 => ⟨S3000000x1, .i32⟩
  | 46 => ⟨S1000000x3, .f32⟩
  | 47 => ⟨S1000000x3, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_call2_v0 : Ref sig .tc := ⟨.hbm, 45, rfl⟩
abbrev main_call2_v1 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_c_8 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_c_10 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_c_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_13 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v57 : Ref sig .tc := ⟨.hbm, 102, rfl⟩
abbrev main_v58 : Ref sig .tc := ⟨.hbm, 103, rfl⟩
abbrev main_cst_15 : Ref sig .tc := ⟨.hbm, 104, rfl⟩
abbrev main_call4_cst : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v59 : Ref sig .tc := ⟨.hbm, 111, rfl⟩
abbrev main_v60 : Ref sig .tc := ⟨.hbm, 112, rfl⟩
abbrev main_cst_16 : Ref sig .tc := ⟨.hbm, 113, rfl⟩
abbrev main_v61 : Ref sig .tc := ⟨.hbm, 114, rfl⟩
abbrev main_cst_17 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_18 : Ref sig .tc := ⟨.hbm, 119, rfl⟩
abbrev main_v65 : Ref sig .tc := ⟨.hbm, 120, rfl⟩
abbrev main_v66 : Ref sig .tc := ⟨.hbm, 121, rfl⟩
abbrev main_cst_19 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_20 : Ref sig .tc := ⟨.hbm, 126, rfl⟩
abbrev main_call5_v0 : Ref sig .tc := ⟨.hbm, 127, rfl⟩
abbrev main_call5_v1 : Ref sig .tc := ⟨.hbm, 128, rfl⟩
abbrev main_v70 : Ref sig .tc := ⟨.hbm, 129, rfl⟩
abbrev main_c_21 : Ref sig .tc := ⟨.hbm, 130, rfl⟩
abbrev main_v71 : Ref sig .tc := ⟨.hbm, 131, rfl⟩
abbrev main_v72 : Ref sig .tc := ⟨.hbm, 132, rfl⟩
abbrev main_c_22 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_c_23 : Ref sig .tc := ⟨.hbm, 139, rfl⟩
abbrev main_v78 : Ref sig .tc := ⟨.hbm, 140, rfl⟩
abbrev main_v79 : Ref sig .tc := ⟨.hbm, 141, rfl⟩
abbrev main_c_24 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_c_25 : Ref sig .tc := ⟨.hbm, 150, rfl⟩
abbrev main_v87 : Ref sig .tc := ⟨.hbm, 151, rfl⟩
abbrev main_v88 : Ref sig .tc := ⟨.hbm, 152, rfl⟩
abbrev main_c_26 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_27 : Ref sig .tc := ⟨.hbm, 159, rfl⟩
abbrev main_v94 : Ref sig .tc := ⟨.hbm, 160, rfl⟩
abbrev main_v95 : Ref sig .tc := ⟨.hbm, 161, rfl⟩
abbrev main_c_28 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_29 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩

abbrev nD : Nat := 1
abbrev τ : Topo := Topo.v7x

variable {F : FTy → Type} [FloatOps F]

class Facts₀ : Prop where
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  bcast_S_S1000000x16 : S_.BroadcastsInDim S1000000x16 (![] : Fin 0 → Fin S1000000x16.rank)
  bcast_S_S3000000 : S_.BroadcastsInDim S3000000 (![] : Fin 0 → Fin S3000000.rank)
  bcast_S_S1000000 : S_.BroadcastsInDim S1000000 (![] : Fin 0 → Fin S1000000.rank)
  bcast_S3000000_S3000000x1_0 : S3000000.BroadcastsInDim S3000000x1 (![0] : Fin 1 → Fin S3000000x1.rank)
  bcast_S3000000x1_S3000000x3_0_1 : S3000000x1.BroadcastsInDim S3000000x3 (![0, 1] : Fin 2 → Fin S3000000x3.rank)
  bcast_S_S1000000x3 : S_.BroadcastsInDim S1000000x3 (![] : Fin 0 → Fin S1000000x3.rank)
  dot_S1000000x3_S3x16_S1000000x16_1_0_0_1_n_n_wf : DotDims.WF S1000000x3 S3x16 S1000000x16 [1] [0] [0] [1] [] []
  dot_S1000000x16_S16x16_S1000000x16_1_0_0_1_n_n_wf : DotDims.WF S1000000x16 S16x16 S1000000x16 [1] [0] [0] [1] [] []
  dot_S1000000x16_S16x3_S1000000x3_1_0_0_1_n_n_wf : DotDims.WF S1000000x16 S16x3 S1000000x3 [1] [0] [0] [1] [] []
  scatter_S1000000_S3000000x1_S3000000_n_0_0_1_wf : ScatterDims.WF S1000000 S3000000x1 S3000000 [] [0] [0] 1
  gather_S1000000_S3000000x1_S3000000_n_0_n_n_0_1_1_wf : GatherDims.WF S1000000 S3000000x1 S3000000 [] [0] [] [0] [] 1 ![1]
  gather_S1000000x3_S3000000x1_S3000000x3_1_0_n_n_0_1_13_wf : GatherDims.WF S1000000x3 S3000000x1 S3000000x3 [1] [0] [] [0] [] 1 ![1, 3]
  scatter_S1000000x3_S3000000x1_S3000000x3_1_0_0_1_wf : ScatterDims.WF S1000000x3 S3000000x1 S3000000x3 [1] [0] [0] 1

variable [Facts₀]

def dot_S1000000x3_S3x16_S1000000x16_1_0_0_1_n_n : DotDims S1000000x3 S3x16 S1000000x16 where
  lhsContracting := [1]
  rhsContracting := [0]
  lhsNonContracting := [0]
  rhsNonContracting := [1]
  lhsBatch := []
  rhsBatch := []
  wf := dot_S1000000x3_S3x16_S1000000x16_1_0_0_1_n_n_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x3_S1000000x3_1_0_0_1_n_n : DotDims S1000000x16 S16x3 S1000000x3 where
  lhsContracting := [1]
  rhsContracting := [0]
  lhsNonContracting := [0]
  rhsNonContracting := [1]
  lhsBatch := []
  rhsBatch := []
  wf := dot_S1000000x16_S16x3_S1000000x3_1_0_0_1_n_n_wf
def scatter_S1000000_S3000000x1_S3000000_n_0_0_1 : ScatterDims S1000000 S3000000x1 S3000000 where
  updateWindowDims := []
  insertedWindowDims := [0]
  scatterDimsToOperandDims := [0]
  indexVectorDim := 1
  wf := scatter_S1000000_S3000000x1_S3000000_n_0_0_1_wf
def gather_S1000000_S3000000x1_S3000000_n_0_n_n_0_1_1 : GatherDims S1000000 S3000000x1 S3000000 where
  offsetDims := []
  collapsedSliceDims := [0]
  operandBatchingDims := []
  startIndicesBatchingDims := []
  startIndexMap := [0]
  indexVectorDim := 1
  sliceSizes := ![1]
  wf := gather_S1000000_S3000000x1_S3000000_n_0_n_n_0_1_1_wf
def gather_S1000000x3_S3000000x1_S3000000x3_1_0_n_n_0_1_13 : GatherDims S1000000x3 S3000000x1 S3000000x3 where
  offsetDims := [1]
  collapsedSliceDims := [0]
  operandBatchingDims := []
  startIndicesBatchingDims := []
  startIndexMap := [0]
  indexVectorDim := 1
  sliceSizes := ![1, 3]
  wf := gather_S1000000x3_S3000000x1_S3000000x3_1_0_n_n_0_1_13_wf
def scatter_S1000000x3_S3000000x1_S3000000x3_1_0_0_1 : ScatterDims S1000000x3 S3000000x1 S3000000x3 where
  updateWindowDims := [1]
  insertedWindowDims := [0]
  scatterDimsToOperandDims := [0]
  indexVectorDim := 1
  wf := scatter_S1000000x3_S3000000x1_S3000000x3_1_0_0_1_wf

class Facts : Prop extends Facts₀ where

variable [Facts]
-- ==== Proof.ResultRun.lean ====
/-
  The idealized kernel program's run with its result named.

  The program is host operations, the first perceptron launch over 125 blocks of 8000 vertices, host operations, the
  second launch, host operations. Every weakly fair execution terminates without a fault; at the end every buffer the
  program does not scope holds the contents of the last boundary of that chain — the fold of each stretch of host
  operations over what the preceding region's write-backs leave — so in particular the result buffer does, and the
  argument arrays are as launched.
-/
import proofs.«171633_j8177617732323_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the eight argument arrays as launched. -/
theorem run_valued : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v74 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.ResultRun

end
-- ==== Proof.MeshSpec.lean ====
/-
  The function both programs compute, written once over whole arrays.

  A mesh has N = 1 000 000 vertices with three coordinates each and E = 3 000 000 directed edges given as two rows of
  vertex numbers: a source row and a target row. One layer moves every vertex by the sum, over the edges that end at it,
  of  norm(e) · (h(source e) − h(target e)),  where h is a small bias-free perceptron applied to each vertex's
  coordinates (3 → 16 → 16 → 3, leaky rectifier with slope 0.01 between the products) and
  norm(e) = dinv(source e) · dinv(target e)  with  dinv(v) = deg(v)^(-1/2)  for a vertex of positive in-degree and 0
  otherwise (deg counts the edges ending at v; the square root's argument is first raised to at least 1e-12). The result
  is two such layers, with separate weights, over the same edges.

  Everything here is a composition of whole-array operations, for any float values: an edge's vertex number is first
  wrapped (a negative number counts from the end) and the gathers clamp; the sums over incoming edges are accumulating
  scatters into a zero array.
-/
import proofs.«171633_j8177617732323_2_alg».proof.ReferenceIdeal

noncomputable section

namespace Cert.MeshSpec

open Idealize.ShloMosaic Cert.ReferenceIdeal Cert.ReferenceIdeal.Facts₀

variable {F : FTy → Type} [FloatOps F] [Cert.ReferenceIdeal.Facts]

/-- The two rows of vertex numbers. -/
abbrev Edges (F : FTy → Type) := (⟨S2x3000000, .i32⟩ : BufTy).Contents (Elt F)
/-- One vertex number per edge. -/
abbrev EdgeIx (F : FTy → Type) := (⟨S3000000, .i32⟩ : BufTy).Contents (Elt F)
/-- One float per edge. -/
abbrev EdgeVal (F : FTy → Type) := (⟨S3000000, .f32⟩ : BufTy).Contents (Elt F)
/-- One float per vertex. -/
abbrev VertVal (F : FTy → Type) := (⟨S1000000, .f32⟩ : BufTy).Contents (Elt F)
/-- Three floats per vertex. -/
abbrev Verts (F : FTy → Type) := (⟨S1000000x3, .f32⟩ : BufTy).Contents (Elt F)
/-- Sixteen floats per vertex. -/
abbrev Hidden (F : FTy → Type) := (⟨S1000000x16, .f32⟩ : BufTy).Contents (Elt F)

/-- The source vertex of every edge: row 0 of the edge table. -/
def sources (ei : Edges F) : EdgeIx F := fun i =>
  shapeCast S3000000 (extractStridedSlice S1x3000000 ![0, 0] ei slices_S2x3000000_S1x3000000_0_0) shapeCasts_S1x3000000_S3000000 i

/-- The target vertex of every edge: row 1 of the edge table. -/
def targets (ei : Edges F) : EdgeIx F := fun i =>
  shapeCast S3000000 (extractStridedSlice S1x3000000 ![1, 0] ei slices_S2x3000000_S1x3000000_1_0) shapeCasts_S1x3000000_S3000000 i

/-- Vertex numbers as a gather reads them: a negative number has N added, and the numbers stand in a column. -/
def wrapped (ix : EdgeIx F) : (⟨S3000000x1, .i32⟩ : BufTy).Contents (Elt F) :=
  broadcastInDim S3000000x1 ![0] bcast_S3000000_S3000000x1_0
    (select (cmpi .slt ix (broadcastInDim S3000000 ![] bcast_S_S3000000 (constantI S_ 32 0#32)))
      (addi ix (broadcastInDim S3000000 ![] bcast_S_S3000000 (constantI S_ 32 1000000#32))) ix)

/-- The in-degree of every vertex: a one added at the target of every edge. -/
def degree (col : EdgeIx F) : VertVal F :=
  Host.scatterAdd scatter_S1000000_S3000000x1_S3000000_n_0_0_1
    (broadcastInDim S1000000 ![] bcast_S_S1000000 (constant S_ .f32 0x00000000#32))
    (broadcastInDim S3000000x1 ![0] bcast_S3000000_S3000000x1_0 col)
    (broadcastInDim S3000000 ![] bcast_S_S3000000 (constant S_ .f32 0x3F800000#32))

/-- deg^(-1/2) where the degree is positive, 0 elsewhere. -/
def invSqrtDegree (col : EdgeIx F) : VertVal F :=
  select (cmpf .ogt (degree col) (broadcastInDim S1000000 ![] bcast_S_S1000000 (constant S_ .f32 0x00000000#32)))
    (Host.rsqrt (maximumf (degree col) (broadcastInDim S1000000 ![] bcast_S_S1000000 (constant S_ .f32 0x2B8CBCCC#32))))
    (broadcastInDim S1000000 ![] bcast_S_S1000000 (constant S_ .f32 0x00000000#32))

/-- The weight of every edge: the product of its two ends' inverse square-root degrees. -/
def edgeWeight (row col : EdgeIx F) : EdgeVal F :=
  mulf (Host.gather gather_S1000000_S3000000x1_S3000000_n_0_n_n_0_1_1 (invSqrtDegree col) (wrapped row))
    (Host.gather gather_S1000000_S3000000x1_S3000000_n_0_n_n_0_1_1 (invSqrtDegree col) (wrapped col))

/-- The leaky rectifier with slope 0.01 (the float nearest to it), entry by entry. -/
def leaky (h : Hidden F) : Hidden F :=
  select (cmpf .oge h (broadcastInDim S1000000x16 ![] bcast_S_S1000000x16 (constant S_ .f32 0x00000000#32))) h
    (mulf (broadcastInDim S1000000x16 ![] bcast_S_S1000000x16 (constant S_ .f32 0x3C23D70A#32)) h)

/-- The per-vertex perceptron: three matrix products with the rectifier between them. -/
def perceptron (x : Verts F) (W1 : (⟨S3x16, .f32⟩ : BufTy).Contents (Elt F)) (W2 : (⟨S16x16, .f32⟩ : BufTy).Contents (Elt F))
    (W3 : (⟨S16x3, .f32⟩ : BufTy).Contents (Elt F)) : Verts F :=
  Host.dotGeneral dot_S1000000x16_S16x3_S1000000x3_1_0_0_1_n_n none
    (leaky (Host.dotGeneral dot_S1000000x16_S16x16_S1000000x16_1_0_0_1_n_n none
      (leaky (Host.dotGeneral dot_S1000000x3_S3x16_S1000000x16_1_0_0_1_n_n none x W1)) W2)) W3

/-- The move of every vertex given the perceptron's values `h`: x plus, at every vertex, the sum over its incoming edges
    of weight · (h at the source − h at the target). -/
def moved (x h : Verts F) (row col : EdgeIx F) (w : EdgeVal F) : Verts F :=
  addf x
    (Host.scatterAdd scatter_S1000000x3_S3000000x1_S3000000x3_1_0_0_1
      (broadcastInDim S1000000x3 ![] bcast_S_S1000000x3 (constant S_ .f32 0x00000000#32))
      (broadcastInDim S3000000x1 ![0] bcast_S3000000_S3000000x1_0 col)
      (mulf
        (broadcastInDim S3000000x3 ![0, 1] bcast_S3000000x1_S3000000x3_0_1
          (broadcastInDim S3000000x1 ![0] bcast_S3000000_S3000000x1_0 w))
        (subf (Host.gather gather_S1000000x3_S3000000x1_S3000000x3_1_0_n_n_0_1_13 h (wrapped row))
          (Host.gather gather_S1000000x3_S3000000x1_S3000000x3_1_0_n_n_0_1_13 h (wrapped col)))))

/-- One layer over the edge table. -/
def layer (x : Verts F) (ei : Edges F) (W1 : (⟨S3x16, .f32⟩ : BufTy).Contents (Elt F))
    (W2 : (⟨S16x16, .f32⟩ : BufTy).Contents (Elt F)) (W3 : (⟨S16x3, .f32⟩ : BufTy).Contents (Elt F)) : Verts F :=
  moved x (perceptron x W1 W2 W3) (sources ei) (targets ei) (edgeWeight (sources ei) (targets ei))

/-- Both layers. -/
def twoLayers (x : Verts F) (ei : Edges F)
    (W1 : (⟨S3x16, .f32⟩ : BufTy).Contents (Elt F)) (W2 : (⟨S16x16, .f32⟩ : BufTy).Contents (Elt F))
    (W3 : (⟨S16x3, .f32⟩ : BufTy).Contents (Elt F)) (W4 : (⟨S3x16, .f32⟩ : BufTy).Contents (Elt F))
    (W5 : (⟨S16x16, .f32⟩ : BufTy).Contents (Elt F)) (W6 : (⟨S16x3, .f32⟩ : BufTy).Contents (Elt F)) : Verts F :=
  layer (layer x ei W1 W2 W3) ei W4 W5 W6

/-- The congruence lemmas of the functions above and of the three product records they use, stated once here: every
    module that rewrites under these functions then shares one copy of each. -/
theorem congruences_stated : True := by
  have := @sources.congr_simp; have := @targets.congr_simp; have := @wrapped.congr_simp; have := @degree.congr_simp
  have := @invSqrtDegree.congr_simp; have := @edgeWeight.congr_simp; have := @leaky.congr_simp
  have := @perceptron.congr_simp; have := @moved.congr_simp; have := @layer.congr_simp; have := @twoLayers.congr_simp
  have := @dot_S1000000x3_S3x16_S1000000x16_1_0_0_1_n_n.congr_simp
  have := @dot_S1000000x16_S16x16_S1000000x16_1_0_0_1_n_n.congr_simp
  have := @dot_S1000000x16_S16x3_S1000000x3_1_0_0_1_n_n.congr_simp
  trivial

end Cert.MeshSpec

end
-- ==== Proof.Stretches.lean ====
/-
  The kernel program's host operations between its launches, read as functions of the buffers they start from.

  Before the first launch the program splits the edge table into its source row and its target row and computes every
  edge's weight from the in-degrees; after each launch it gathers the perceptron's values at both ends of every edge,
  takes weight · (value at the source − value at the target), sums these at the target vertices and adds the sum to the
  layer's input. Each stretch is a straight line of whole-array operations, so what a buffer holds after it is the
  composition of those operations over what the stretch started from; written out, the compositions are the mesh
  functions `sources`, `targets`, `edgeWeight` and `moved`. The two programs name their dimension records apart, but a
  record is determined by its dimension numbers, which are the same.
-/
import proofs.«171633_j8177617732323_2_alg».proof.Proof.Gen.KernelIdeal.Frame
import proofs.«171633_j8177617732323_2_alg».proof.Proof.Gen.ReferenceIdeal
import proofs.«171633_j8177617732323_2_alg».proof.Proof.MeshSpec
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo
open Cert.MeshSpec

variable {F : FTy → Type} [FloatOps F]

attribute [local irreducible] Host.scatterAdd Host.gather Host.rsqrt

/-- After the second launch: the result is the second layer's input moved along the second perceptron's values. -/
theorem tail_after_second (W : Valuation τ sig (Elt F)) :
    after hostOps2 W (Proc.devRef .tc main_v74)
      = moved (F := F) (W (Proc.devRef .tc main_v51)) (W (Proc.devRef .tc main_v52)) (W (Proc.devRef .tc main_v1))
          (W (Proc.devRef .tc main_v3)) (W (Proc.devRef .tc main_v28)) := by
  after_results_simp
  rfl

/-- After the first launch: the second layer's input is the vertex array moved along the first perceptron's values. -/
theorem tail_after_first (W : Valuation τ sig (Elt F)) :
    after hostOps1 W (Proc.devRef .tc main_v51)
      = moved (F := F) (W (Proc.devRef .tc main_arg0)) (W (Proc.devRef .tc main_v29)) (W (Proc.devRef .tc main_v1))
          (W (Proc.devRef .tc main_v3)) (W (Proc.devRef .tc main_v28)) := by
  after_results_simp
  rfl

/-- Before the first launch: the source row of the edge table. -/
theorem sources_before (W : Valuation τ sig (Elt F)) :
    after hostOps0_2 (after hostOps0_1 (after hostOps0 W)) (Proc.devRef .tc main_v1)
      = sources (F := F) (W (Proc.devRef .tc main_arg1)) := by
  after_results_simp
  rfl

/-- Before the first launch: the target row of the edge table. -/
theorem targets_before (W : Valuation τ sig (Elt F)) :
    after hostOps0_2 (after hostOps0_1 (after hostOps0 W)) (Proc.devRef .tc main_v3)
      = targets (F := F) (W (Proc.devRef .tc main_arg1)) := by
  after_results_simp
  rfl

/-- Before the first launch: every edge's weight. -/
theorem weight_before (W : Valuation τ sig (Elt F)) :
    after hostOps0_2 (after hostOps0_1 (after hostOps0 W)) (Proc.devRef .tc main_v28)
      = edgeWeight (F := F) (sources (W (Proc.devRef .tc main_arg1))) (targets (W (Proc.devRef .tc main_arg1))) := by
  after_results_simp
  rfl

/-! ## What the stretches leave alone

A stretch writes only its own results, so the rows, the weights and the argument arrays pass through the later stretches
unchanged. -/

theorem second_keeps_sources (W : Valuation τ sig (Elt F)) :
    after hostOps1 W (Proc.devRef .tc main_v1) = W (Proc.devRef .tc main_v1) := by after_results_simp
theorem second_keeps_targets (W : Valuation τ sig (Elt F)) :
    after hostOps1 W (Proc.devRef .tc main_v3) = W (Proc.devRef .tc main_v3) := by after_results_simp
theorem second_keeps_weight (W : Valuation τ sig (Elt F)) :
    after hostOps1 W (Proc.devRef .tc main_v28) = W (Proc.devRef .tc main_v28) := by after_results_simp
theorem second_keeps_arg5 (W : Valuation τ sig (Elt F)) :
    after hostOps1 W (Proc.devRef .tc main_arg5) = W (Proc.devRef .tc main_arg5) := by after_results_simp
theorem second_keeps_arg6 (W : Valuation τ sig (Elt F)) :
    after hostOps1 W (Proc.devRef .tc main_arg6) = W (Proc.devRef .tc main_arg6) := by after_results_simp
theorem second_keeps_arg7 (W : Valuation τ sig (Elt F)) :
    after hostOps1 W (Proc.devRef .tc main_arg7) = W (Proc.devRef .tc main_arg7) := by after_results_simp

theorem first_keeps_arg0 (W : Valuation τ sig (Elt F)) :
    after hostOps0_2 (after hostOps0_1 (after hostOps0 W)) (Proc.devRef .tc main_arg0) = W (Proc.devRef .tc main_arg0) := by
  after_results_simp
theorem first_keeps_arg2 (W : Valuation τ sig (Elt F)) :
    after hostOps0_2 (after hostOps0_1 (after hostOps0 W)) (Proc.devRef .tc main_arg2) = W (Proc.devRef .tc main_arg2) := by
  after_results_simp
theorem first_keeps_arg3 (W : Valuation τ sig (Elt F)) :
    after hostOps0_2 (after hostOps0_1 (after hostOps0 W)) (Proc.devRef .tc main_arg3) = W (Proc.devRef .tc main_arg3) := by
  after_results_simp
theorem first_keeps_arg4 (W : Valuation τ sig (Elt F)) :
    after hostOps0_2 (after hostOps0_1 (after hostOps0 W)) (Proc.devRef .tc main_arg4) = W (Proc.devRef .tc main_arg4) := by
  after_results_simp
theorem first_keeps_arg5 (W : Valuation τ sig (Elt F)) :
    after hostOps0_2 (after hostOps0_1 (after hostOps0 W)) (Proc.devRef .tc main_arg5) = W (Proc.devRef .tc main_arg5) := by
  after_results_simp
theorem first_keeps_arg6 (W : Valuation τ sig (Elt F)) :
    after hostOps0_2 (after hostOps0_1 (after hostOps0 W)) (Proc.devRef .tc main_arg6) = W (Proc.devRef .tc main_arg6) := by
  after_results_simp
theorem first_keeps_arg7 (W : Valuation τ sig (Elt F)) :
    after hostOps0_2 (after hostOps0_1 (after hostOps0 W)) (Proc.devRef .tc main_arg7) = W (Proc.devRef .tc main_arg7) := by
  after_results_simp

end Cert.KernelIdeal.Stretches

end
-- ==== Proof.ResultValue.lean ====
/-
  The idealized kernel program's result, as a function of its arguments.

  The chain of boundaries of the program's run is read backwards from the result buffer: the last stretch of host
  operations moves the second layer's input along the second launch's output; that output is the perceptron of the
  launch's operands as the region found them; the second layer's input is the vertex array moved along the first
  launch's output, which is the perceptron of the vertex array and the first three weight matrices; the rows of the edge
  table and the edge weights are computed before the first launch and pass through everything after it, as do the
  argument arrays. Composed, the result buffer ends at the two-layer function of the eight argument arrays.

  The two launches' whole-array values are taken here as hypotheses, stated for arbitrary region-entry contents.
-/
import proofs.«171633_j8177617732323_2_alg».proof.Proof.Stretches
import Idealize.ShloMosaic.PureOps.Ideal

set_option maxRecDepth 16384

noncomputable section

namespace Cert.KernelIdeal.ResultValue

open Cert.KernelIdeal Cert.KernelIdeal.Gen Cert.KernelIdeal.Stretches
open Idealize.ShloMosaic Idealize.ShloMosaic.TcCoe Idealize.ShloMosaic.StableHlo Idealize.SL.Sem
open Cert.MeshSpec

variable (m : (ℓ : Loc nD τ sig) → Buf (Elt Ideal) ℓ) (ρ : Dev nD → PrngReg)

/-- The value of the first launch: its output array ends at the perceptron of its operands as entered. -/
abbrev FirstLaunch : Prop :=
  ∀ (V : (c : Dev nD) → (b : Ref sig .tc) → Buf (Elt Ideal) ((c : Thread nD τ).loc b)) (c : Dev nD),
    (dat0 (F := Ideal) V c).arrAt 4 cfg0.N
      = perceptron (F := Ideal) (V c main_arg0) (V c main_arg2) (V c main_arg3) (V c main_arg4)

/-- The value of the second launch. -/
abbrev SecondLaunch : Prop :=
  ∀ (V : (c : Dev nD) → (b : Ref sig .tc) → Buf (Elt Ideal) ((c : Thread nD τ).loc b)) (c : Dev nD),
    (dat1 (F := Ideal) V c).arrAt 4 cfg1.N
      = perceptron (F := Ideal) (V c main_v51) (V c main_arg5) (V c main_arg6) (V c main_arg7)

/-- At the first launch's entry the argument arrays are as launched, the rows are the edge table's and the weights
    the edge weights. -/
theorem entry_arg0 (c : Dev nD) : W3 m ρ c (Proc.devRef .tc main_arg0) = m ((c : Thread nD τ).loc main_arg0) :=
  first_keeps_arg0 (W0 m ρ c)
theorem entry_arg2 (c : Dev nD) : W3 m ρ c (Proc.devRef .tc main_arg2) = m ((c : Thread nD τ).loc main_arg2) :=
  first_keeps_arg2 (W0 m ρ c)
theorem entry_arg3 (c : Dev nD) : W3 m ρ c (Proc.devRef .tc main_arg3) = m ((c : Thread nD τ).loc main_arg3) :=
  first_keeps_arg3 (W0 m ρ c)
theorem entry_arg4 (c : Dev nD) : W3 m ρ c (Proc.devRef .tc main_arg4) = m ((c : Thread nD τ).loc main_arg4) :=
  first_keeps_arg4 (W0 m ρ c)
theorem entry_arg5 (c : Dev nD) : W3 m ρ c (Proc.devRef .tc main_arg5) = m ((c : Thread nD τ).loc main_arg5) :=
  first_keeps_arg5 (W0 m ρ c)
theorem entry_arg6 (c : Dev nD) : W3 m ρ c (Proc.devRef .tc main_arg6) = m ((c : Thread nD τ).loc main_arg6) :=
  first_keeps_arg6 (W0 m ρ c)
theorem entry_arg7 (c : Dev nD) : W3 m ρ c (Proc.devRef .tc main_arg7) = m ((c : Thread nD τ).loc main_arg7) :=
  first_keeps_arg7 (W0 m ρ c)
theorem entry_sources (c : Dev nD) :
    W3 m ρ c (Proc.devRef .tc main_v1) = sources (F := Ideal) (m ((c : Thread nD τ).loc main_arg1)) :=
  sources_before (W0 m ρ c)
theorem entry_targets (c : Dev nD) :
    W3 m ρ c (Proc.devRef .tc main_v3) = targets (F := Ideal) (m ((c : Thread nD τ).loc main_arg1)) :=
  targets_before (W0 m ρ c)
theorem entry_weight (c : Dev nD) :
    W3 m ρ c (Proc.devRef .tc main_v28)
      = edgeWeight (F := Ideal) (sources (m ((c : Thread nD τ).loc main_arg1))) (targets (m ((c : Thread nD τ).loc main_arg1))) :=
  weight_before (W0 m ρ c)

/-- The first launch reads the vertex array and leaves it as entered. -/
theorem exit0_arg0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))

/-- The second layer's input: the first layer of the vertex array. -/
theorem second_input (h0 : FirstLaunch) (c : Dev nD) :
    W5 m ρ c (Proc.devRef .tc main_v51)
      = layer (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have out0 : W4 m ρ c (Proc.devRef .tc main_v29)
      = perceptron (F := Ideal) (W3 m ρ c (Proc.devRef .tc main_arg0)) (W3 m ρ c (Proc.devRef .tc main_arg2))
          (W3 m ρ c (Proc.devRef .tc main_arg3)) (W3 m ρ c (Proc.devRef .tc main_arg4)) :=
    (W4_arr m ρ c 4).trans (h0 (V3 m ρ) c)
  have k1 : W4 m ρ c (Proc.devRef .tc main_v1) = W3 m ρ c (Proc.devRef .tc main_v1) := W4_of_ne m ρ c main_v1 (by decide)
  have k3 : W4 m ρ c (Proc.devRef .tc main_v3) = W3 m ρ c (Proc.devRef .tc main_v3) := W4_of_ne m ρ c main_v3 (by decide)
  have k28 : W4 m ρ c (Proc.devRef .tc main_v28) = W3 m ρ c (Proc.devRef .tc main_v28) := W4_of_ne m ρ c main_v28 (by decide)
  refine (tail_after_first (F := Ideal) (W4 m ρ c)).trans ?_
  rw [out0, k1, k3, k28, exit0_arg0, entry_arg0, entry_arg2, entry_arg3, entry_arg4, entry_sources, entry_targets, entry_weight]
  rfl

/-- The result buffer at the last boundary: both layers of the vertex array. -/
theorem result_value (h0 : FirstLaunch) (h1 : SecondLaunch) (c : Dev nD) :
    W7 m ρ c (Proc.devRef .tc main_v74)
      = twoLayers (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have out1 : W6 m ρ c (Proc.devRef .tc main_v52)
      = perceptron (F := Ideal) (W5 m ρ c (Proc.devRef .tc main_v51)) (W5 m ρ c (Proc.devRef .tc main_arg5))
          (W5 m ρ c (Proc.devRef .tc main_arg6)) (W5 m ρ c (Proc.devRef .tc main_arg7)) :=
    (W6_arr m ρ c 4).trans (h1 (V5 m ρ) c)
  have x51 : W6 m ρ c (Proc.devRef .tc main_v51) = W5 m ρ c (Proc.devRef .tc main_v51) :=
    (W6_arr m ρ c 0).trans (((dat1 (V5 m ρ) c).arrAt_in 0 rfl _).trans (A_eq1 (V5 m ρ) c 0))
  have k1 : W6 m ρ c (Proc.devRef .tc main_v1) = W3 m ρ c (Proc.devRef .tc main_v1) :=
    (W6_of_ne m ρ c main_v1 (by decide)).trans ((second_keeps_sources (W4 m ρ c)).trans (W4_of_ne m ρ c main_v1 (by decide)))
  have k3 : W6 m ρ c (Proc.devRef .tc main_v3) = W3 m ρ c (Proc.devRef .tc main_v3) :=
    (W6_of_ne m ρ c main_v3 (by decide)).trans ((second_keeps_targets (W4 m ρ c)).trans (W4_of_ne m ρ c main_v3 (by decide)))
  have k28 : W6 m ρ c (Proc.devRef .tc main_v28) = W3 m ρ c (Proc.devRef .tc main_v28) :=
    (W6_of_ne m ρ c main_v28 (by decide)).trans ((second_keeps_weight (W4 m ρ c)).trans (W4_of_ne m ρ c main_v28 (by decide)))
  have a5 : W5 m ρ c (Proc.devRef .tc main_arg5) = m ((c : Thread nD τ).loc main_arg5) :=
    (second_keeps_arg5 (W4 m ρ c)).trans ((W4_of_ne m ρ c main_arg5 (by decide)).trans (entry_arg5 m ρ c))
  have a6 : W5 m ρ c (Proc.devRef .tc main_arg6) = m ((c : Thread nD τ).loc main_arg6) :=
    (second_keeps_arg6 (W4 m ρ c)).trans ((W4_of_ne m ρ c main_arg6 (by decide)).trans (entry_arg6 m ρ c))
  have a7 : W5 m ρ c (Proc.devRef .tc main_arg7) = m ((c : Thread nD τ).loc main_arg7) :=
    (second_keeps_arg7 (W4 m ρ c)).trans ((W4_of_ne m ρ c main_arg7 (by decide)).trans (entry_arg7 m ρ c))
  refine (tail_after_second (F := Ideal) (W6 m ρ c)).trans ?_
  rw [out1, x51, k1, k3, k28, a5, a6, a7, second_input m ρ h0 c, entry_sources, entry_targets, entry_weight]
  rfl

end Cert.KernelIdeal.ResultValue

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.LaunchValue.lean ====
/-
  The value of each perceptron launch: what the launch leaves in its output array.

  A launch runs over 125 points. Point t loads rows 8000·t … 8000·t + 7999 of the vertex array and the three whole
  weight matrices, and stores, for every loaded row, the row's value under the bias-free perceptron 3 → 16 → 16 → 3
  with the leaky rectifier between the products; the stored block is written back to rows 8000·t … 8000·t + 7999 of
  the output array. The whole-array perceptron of the specification computes, at vertex r, the same three sums over
  the same three inputs of row r and the same weights. So:

  * one vertex's value is written once, as a function `rowValue` of the vertex's three coordinates and the weights;
  * the stored block at (p, q) is `rowValue` of row p of the loaded block, and the specification's perceptron at
    (r, q) is `rowValue` of row r of the array: each product read at an entry is a finite sum, and the rectifier,
    the comparisons and the constants act entry by entry (the casts to a narrower float and the reshape of a block to
    its own shape change nothing over the extended reals);
  * row p of point t's vertex block is row 8000·t + p of the vertex array, the weights' blocks are the weight arrays,
    and the written block's entry (p, q) lies at (8000·t + p, q) of the output array: so what point t writes back is
    block t of the specification's perceptron;
  * every vertex row r lies in the block of point r / 8000 and every point writes back, so after the last point the
    output array is the specification's perceptron of the arrays the launch was entered with, whatever they were.
-/
import proofs.«171633_j8177617732323_2_alg».proof.Proof.ResultValue
import proofs.«171633_j8177617732323_2_alg».proof.Proof.Gen.KernelIdeal.Frame
import proofs.«171633_j8177617732323_2_alg».proof.Proof.Gen.ReferenceIdeal
import proofs.«171633_j8177617732323_2_alg».proof.Proof.MeshSpec
import proofs.«171633_j8177617732323_2_alg».proof.Proof.LibMatmulIx
import proofs.«171633_j8177617732323_2_alg».proof.Proof.LibHostDotIx
import Idealize.ShloMosaic.Lib.Pipeline.Value

set_option maxRecDepth 16384

noncomputable section

open scoped BigOperators

namespace Cert.KernelIdeal.LaunchValue

open Idealize.ShloMosaic Idealize.ShloMosaic.ValueIdx

/-! ## One vertex's row of the perceptron -/

/-- The leaky rectifier on one extended real: the number itself where it is at least zero, 0.01 (the float nearest to it)
    times the number elsewhere. -/
def rectify (z : EReal) : EReal :=
  Scalar.select (FloatOps.cmpf (F := Ideal) (φ := .f32) .oge z (Ideal.ofBits .f32 0x00000000#32)) z
    (Ideal.ofBits .f32 0x3C23D70A#32 * z)

/-- Coordinate `q` of the perceptron's value at one vertex, from that vertex's three coordinates `x` and the three weight
    matrices: three products with the rectifier between them. -/
def rowValue (x : Fin 3 → EReal) (W1 : Fin 3 → Fin 16 → EReal) (W2 : Fin 16 → Fin 16 → EReal)
    (W3 : Fin 16 → Fin 3 → EReal) (q : Fin 3) : EReal :=
  ∑ k : Fin 16, rectify (∑ j : Fin 16, rectify (∑ i : Fin 3, x i * W1 i j) * W2 j k) * W3 k q

/-! ## The three products of a block, at an entry -/

section Block
open Cert.KernelIdeal Cert.KernelIdeal.Gen

theorem blockProduct1 {φ₁ φ₂ : FTy} (A : FVec Ideal S8000x3 φ₁) (B : FVec Ideal S3x16 φ₂) (a : Fin 8000) (b : Fin 16) :
    matmul dot_S8000x3_S3x16_S8000x16_1_0_0_1_n_n none A B (constant (F := Ideal) S8000x16 .f32 0x00000000#32) (ix2 a b)
      = ∑ c : Fin 3, A (ix2 a c) * B (ix2 c b) :=
  Cert.LibMatmulIx.matmul_zero_apply _ none A B a b

theorem blockProduct2 {φ₁ φ₂ : FTy} (A : FVec Ideal S8000x16 φ₁) (B : FVec Ideal S16x16 φ₂) (a : Fin 8000) (b : Fin 16) :
    matmul dot_S8000x16_S16x16_S8000x16_1_0_0_1_n_n none A B (constant (F := Ideal) S8000x16 .f32 0x00000000#32) (ix2 a b)
      = ∑ c : Fin 16, A (ix2 a c) * B (ix2 c b) :=
  Cert.LibMatmulIx.matmul_zero_apply _ none A B a b

theorem blockProduct3 {φ₁ φ₂ : FTy} (A : FVec Ideal S8000x16 φ₁) (B : FVec Ideal S16x3 φ₂) (a : Fin 8000) (b : Fin 3) :
    matmul dot_S8000x16_S16x3_S8000x3_1_0_0_1_n_n none A B (constant (F := Ideal) S8000x3 .f32 0x00000000#32) (ix2 a b)
      = ∑ c : Fin 16, A (ix2 a c) * B (ix2 c b) :=
  Cert.LibMatmulIx.matmul_zero_apply _ none A B a b

/-- The first launch's stored block at row `p`, coordinate `q`: the row value of row `p` of the loaded vertex block. -/
theorem payload0_apply (x0 : Vec Ideal S8000x3 .f32) (w1 : Vec Ideal S3x16 .f32) (w2 : Vec Ideal S16x16 .f32)
    (w3 : Vec Ideal S16x3 .f32) (p : Fin 8000) (q : Fin 3) :
    k0_pay1 (F := Ideal) x0 w1 w2 w3 (ix2 p q)
      = rowValue (fun i => x0 (ix2 p i)) (fun i j => w1 (ix2 i j)) (fun j k => w2 (ix2 j k)) (fun k q => w3 (ix2 k q)) q := by
  unfold k0_pay1 rowValue rectify
  simp only [blockProduct3, blockProduct2, blockProduct1, truncf_apply, select_apply, cmpf_apply, mulf_apply, broadcast_apply]
  rfl

/-- The second launch's stored block: the same (its extra reshape of the vertex block to its own shape changes nothing). -/
theorem payload1_apply (x0 : Vec Ideal S8000x3 .f32) (w1 : Vec Ideal S3x16 .f32) (w2 : Vec Ideal S16x16 .f32)
    (w3 : Vec Ideal S16x3 .f32) (p : Fin 8000) (q : Fin 3) :
    k1_pay1 (F := Ideal) x0 w1 w2 w3 (ix2 p q)
      = rowValue (fun i => x0 (ix2 p i)) (fun i j => w1 (ix2 i j)) (fun j k => w2 (ix2 j k)) (fun k q => w3 (ix2 k q)) q := by
  unfold k1_pay1 rowValue rectify
  simp only [shapeCast_self, blockProduct3, blockProduct2, blockProduct1, truncf_apply, select_apply, cmpf_apply, mulf_apply, broadcast_apply]
  rfl

end Block

/-! ## The three whole-array products, at an entry -/

section Whole
open Cert.ReferenceIdeal Cert.ReferenceIdeal.Facts₀

theorem wholeProduct1 (A : FVec Ideal Cert.ReferenceIdeal.S1000000x3 .f32) (B : FVec Ideal Cert.ReferenceIdeal.S3x16 .f32) (a : Fin 1000000) (b : Fin 16) :
    Host.dotGeneral (F := Ideal) dot_S1000000x3_S3x16_S1000000x16_1_0_0_1_n_n none A B (ix2 a b)
      = ∑ c : Fin 3, A (ix2 a c) * B (ix2 c b) :=
  Cert.LibHostDotIx.dotGeneral_apply _ none A B a b

theorem wholeProduct2 (A : FVec Ideal Cert.ReferenceIdeal.S1000000x16 .f32) (B : FVec Ideal Cert.ReferenceIdeal.S16x16 .f32) (a : Fin 1000000) (b : Fin 16) :
    Host.dotGeneral (F := Ideal) dot_S1000000x16_S16x16_S1000000x16_1_0_0_1_n_n none A B (ix2 a b)
      = ∑ c : Fin 16, A (ix2 a c) * B (ix2 c b) :=
  Cert.LibHostDotIx.dotGeneral_apply _ none A B a b

theorem wholeProduct3 (A : FVec Ideal Cert.ReferenceIdeal.S1000000x16 .f32) (B : FVec Ideal Cert.ReferenceIdeal.S16x3 .f32) (a : Fin 1000000) (b : Fin 3) :
    Host.dotGeneral (F := Ideal) dot_S1000000x16_S16x3_S1000000x3_1_0_0_1_n_n none A B (ix2 a b)
      = ∑ c : Fin 16, A (ix2 a c) * B (ix2 c b) :=
  Cert.LibHostDotIx.dotGeneral_apply _ none A B a b

/-- The perceptron over the whole vertex array at vertex `r`, coordinate `q`: the row value of row `r`. -/
theorem perceptron_apply (X : Cert.MeshSpec.Verts Ideal) (W1 : (⟨Cert.ReferenceIdeal.S3x16, .f32⟩ : BufTy).Contents (Elt Ideal))
    (W2 : (⟨Cert.ReferenceIdeal.S16x16, .f32⟩ : BufTy).Contents (Elt Ideal)) (W3 : (⟨Cert.ReferenceIdeal.S16x3, .f32⟩ : BufTy).Contents (Elt Ideal))
    (r : Fin 1000000) (q : Fin 3) :
    Cert.MeshSpec.perceptron (F := Ideal) X W1 W2 W3 (ix2 r q)
      = rowValue (fun i => X (ix2 r i)) (fun i j => W1 (ix2 i j)) (fun j k => W2 (ix2 j k)) (fun k q => W3 (ix2 k q)) q := by
  unfold Cert.MeshSpec.perceptron Cert.MeshSpec.leaky rowValue rectify
  simp only [wholeProduct3, wholeProduct2, wholeProduct1, select_apply, cmpf_apply, mulf_apply]
  rfl

end Whole

/-! ## A block's row against the array's row -/

section Rows
open Cert.KernelIdeal Cert.KernelIdeal.Gen

/-- If row `p` of a loaded vertex block is row `r` of the vertex array and the loaded weights are the weight arrays, the first
    launch's stored block at `(p, q)` is the perceptron of the arrays at `(r, q)`. -/
theorem payload0_eq_perceptron (X : Cert.MeshSpec.Verts Ideal) (W1 : (⟨Cert.ReferenceIdeal.S3x16, .f32⟩ : BufTy).Contents (Elt Ideal))
    (W2 : (⟨Cert.ReferenceIdeal.S16x16, .f32⟩ : BufTy).Contents (Elt Ideal)) (W3 : (⟨Cert.ReferenceIdeal.S16x3, .f32⟩ : BufTy).Contents (Elt Ideal))
    (x0 : Vec Ideal S8000x3 .f32) (w1 : Vec Ideal S3x16 .f32) (w2 : Vec Ideal S16x16 .f32) (w3 : Vec Ideal S16x3 .f32)
    (p : Fin 8000) (r : Fin 1000000) (q : Fin 3)
    (hx : ∀ a : Fin 3, x0 (ix2 p a) = X (ix2 r a))
    (h1 : ∀ (a : Fin 3) (b : Fin 16), w1 (ix2 a b) = W1 (ix2 a b))
    (h2 : ∀ (a : Fin 16) (b : Fin 16), w2 (ix2 a b) = W2 (ix2 a b))
    (h3 : ∀ (a : Fin 16) (b : Fin 3), w3 (ix2 a b) = W3 (ix2 a b)) :
    k0_pay1 (F := Ideal) x0 w1 w2 w3 (ix2 p q) = Cert.MeshSpec.perceptron (F := Ideal) X W1 W2 W3 (ix2 r q) := by
  rw [payload0_apply, perceptron_apply]
  simp only [hx, h1, h2, h3]

/-- The same for the second launch. -/
theorem payload1_eq_perceptron (X : Cert.MeshSpec.Verts Ideal) (W1 : (⟨Cert.ReferenceIdeal.S3x16, .f32⟩ : BufTy).Contents (Elt Ideal))
    (W2 : (⟨Cert.ReferenceIdeal.S16x16, .f32⟩ : BufTy).Contents (Elt Ideal)) (W3 : (⟨Cert.ReferenceIdeal.S16x3, .f32⟩ : BufTy).Contents (Elt Ideal))
    (x0 : Vec Ideal S8000x3 .f32) (w1 : Vec Ideal S3x16 .f32) (w2 : Vec Ideal S16x16 .f32) (w3 : Vec Ideal S16x3 .f32)
    (p : Fin 8000) (r : Fin 1000000) (q : Fin 3)
    (hx : ∀ a : Fin 3, x0 (ix2 p a) = X (ix2 r a))
    (h1 : ∀ (a : Fin 3) (b : Fin 16), w1 (ix2 a b) = W1 (ix2 a b))
    (h2 : ∀ (a : Fin 16) (b : Fin 16), w2 (ix2 a b) = W2 (ix2 a b))
    (h3 : ∀ (a : Fin 16) (b : Fin 3), w3 (ix2 a b) = W3 (ix2 a b)) :
    k1_pay1 (F := Ideal) x0 w1 w2 w3 (ix2 p q) = Cert.MeshSpec.perceptron (F := Ideal) X W1 W2 W3 (ix2 r q) := by
  rw [payload1_apply, perceptron_apply]
  simp only [hx, h1, h2, h3]

end Rows

/-! ## The first launch -/

section Launch0
open Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The perceptron of the vertex array and the weights as the first launch finds them. -/
abbrev target0 (c : Dev nD) : Buf (Elt Ideal) ((c : Thread nD τ).loc main_v29) :=
  Cert.MeshSpec.perceptron (F := Ideal) (V c main_arg0) (V c main_arg2) (V c main_arg3) (V c main_arg4)

/-- The block each window is on at point `t`: the vertex blocks (read and written) are block `t` of their arrays' rows, the
    weights' blocks are the whole matrices. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the perceptron of the arrays. -/
theorem flushed0_eq (c : Dev nD) (t : Fin cfg0.N) :
    (dat0 (F := Ideal) V c).flushed 4 t = ((cfg0.win 4).blk t).view.read (Elt Ideal) (target0 V c) := by
  show (cfg0.win 4).cut (grid0.coords t) ((dat0 (F := Ideal) V c).after 4 t) = _
  rw [after0_4]
  unfold out0_4
  rw [View.canon_unit_zero zeroOffsets]
  simp only [View.ld_unit_zero (S := S8000x3) zeroOffsets, View.ld_unit_zero (S := S3x16) zeroOffsets,
    View.ld_unit_zero (S := S16x16) zeroOffsets, View.ld_unit_zero (S := S16x3) zeroOffsets]
  obtain ⟨e00, e01, e10, e11, e20, e21, e30, e31, e40, e41⟩ := blockIndex0 t
  have ht : t.val < 125 := t.isLt
  funext y
  obtain ⟨p, q, rfl⟩ : ∃ (p : Fin 8000) (q : Fin 3), y = ix2 p q := ⟨y 0, y 1, eq_ix2 y⟩
  have hemb : ((cfg0.win 4).blk t).view.emb (ix2 p q) = ix2 (⟨8000 * t.val + p.val, by omega⟩ : Fin 1000000) q := by
    funext a; apply Fin.ext
    match a with
    | ⟨0, _⟩ => show win0_4.index t (0 : Fin 2) * 8000 + 1 * p.val = 8000 * t.val + p.val; omega
    | ⟨1, _⟩ => show win0_4.index t (1 : Fin 2) * 3 + 1 * q.val = q.val; omega
  show k0_pay1 (F := Ideal) (iblk0 V c 0 t) (iblk0 V c 1 t) (iblk0 V c 2 t) (iblk0 V c 3 t) (ix2 p q)
    = Cert.MeshSpec.perceptron (F := Ideal) (V c main_arg0) (V c main_arg2) (V c main_arg3) (V c main_arg4)
        (((cfg0.win 4).blk t).view.emb (ix2 p q))
  rw [hemb]
  refine payload0_eq_perceptron _ _ _ _ _ _ _ _ p _ q (fun a => ?_) (fun a b => ?_) (fun a b => ?_) (fun a b => ?_)
  · show V c main_arg0 (((cfg0.win 0).blk t).view.emb (ix2 p a)) = V c main_arg0 (ix2 _ a)
    refine congrArg _ (funext fun ax => Fin.ext ?_)
    match ax with
    | ⟨0, _⟩ => show win0_0.index t (0 : Fin 2) * 8000 + 1 * p.val = 8000 * t.val + p.val; omega
    | ⟨1, _⟩ => show win0_0.index t (1 : Fin 2) * 3 + 1 * a.val = a.val; omega
  · show V c main_arg2 (((cfg0.win 1).blk t).view.emb (ix2 a b)) = V c main_arg2 (ix2 a b)
    refine congrArg _ (funext fun ax => Fin.ext ?_)
    match ax with
    | ⟨0, _⟩ => show win0_1.index t (0 : Fin 2) * 3 + 1 * a.val = a.val; omega
    | ⟨1, _⟩ => show win0_1.index t (1 : Fin 2) * 16 + 1 * b.val = b.val; omega
  · show V c main_arg3 (((cfg0.win 2).blk t).view.emb (ix2 a b)) = V c main_arg3 (ix2 a b)
    refine congrArg _ (funext fun ax => Fin.ext ?_)
    match ax with
    | ⟨0, _⟩ => show win0_2.index t (0 : Fin 2) * 16 + 1 * a.val = a.val; omega
    | ⟨1, _⟩ => show win0_2.index t (1 : Fin 2) * 16 + 1 * b.val = b.val; omega
  · show V c main_arg4 (((cfg0.win 3).blk t).view.emb (ix2 a b)) = V c main_arg4 (ix2 a b)
    refine congrArg _ (funext fun ax => Fin.ext ?_)
    match ax with
    | ⟨0, _⟩ => show win0_3.index t (0 : Fin 2) * 16 + 1 * a.val = a.val; omega
    | ⟨1, _⟩ => show win0_3.index t (1 : Fin 2) * 3 + 1 * b.val = b.val; omega

/-- An index of the written array is in point `t`'s block iff each coordinate is in the block's range on its axis. -/
theorem mem_block0 (t : Fin cfg0.N) (i : S1000000x3.Idx) :
    i ∈ ((cfg0.win 4).blk t).view.set ↔ ∀ a : Fin 2, win0_4.index t a * S8000x3.size a ≤ (i a).val
      ∧ (i a).val < win0_4.index t a * S8000x3.size a + S8000x3.size a := by
  show i ∈ ((View.whole main_v29).slice (win0_4.rect t)).set ↔ _
  rw [View.set_slice_whole, Rect.mem_set_unit]
  exact Iff.rfl

/-- Every vertex row `r` is in the block of point `r / 8000`, and every point writes back. -/
theorem covered0 (i : S1000000x3.Idx) :
    ∃ t : Fin cfg0.N, (cfg0.win 4).flush t = true ∧ i ∈ ((cfg0.win 4).blk t).view.set := by
  have hi0 : (i 0).val < 1000000 := (i 0).isLt
  have hi1 : (i 1).val < 3 := (i 1).isLt
  obtain ⟨t, ht⟩ : ∃ t : Fin cfg0.N, t.val = (i 0).val / 8000 := ⟨⟨(i 0).val / 8000, by show _ < 125; omega⟩, rfl⟩
  obtain ⟨-, -, -, -, -, -, -, -, e40, e41⟩ := blockIndex0 t
  refine ⟨t, flush0_4 t, ?_⟩
  rw [mem_block0]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 3 ≤ (i 1).val ∧ (i 1).val < win0_4.index t (1 : Fin 2) * 3 + 3
    omega

/-- THE FIRST LAUNCH'S VALUE: after the last point its output array holds the perceptron of the vertex array and the
    weights it was entered with. -/
theorem launch0_value : Cert.KernelIdeal.ResultValue.FirstLaunch := fun V c =>
  (dat0 (F := Ideal) V c).arrAt_eq_of_cover 4 (target0 V c) (fun t _ => flushed0_eq V c t) covered0

end Launch0

/-! ## The second launch -/

section Launch1
open Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

/-- The perceptron of the vertex array and the weights as the second launch finds them. -/
abbrev target1 (c : Dev nD) : Buf (Elt Ideal) ((c : Thread nD τ).loc main_v52) :=
  Cert.MeshSpec.perceptron (F := Ideal) (V c main_v51) (V c main_arg5) (V c main_arg6) (V c main_arg7)

/-- The block each window is on at point `t`: the vertex blocks (read and written) are block `t` of their arrays' rows, the
    weights' blocks are the whole matrices. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the perceptron of the arrays. -/
theorem flushed1_eq (c : Dev nD) (t : Fin cfg1.N) :
    (dat1 (F := Ideal) V c).flushed 4 t = ((cfg1.win 4).blk t).view.read (Elt Ideal) (target1 V c) := by
  show (cfg1.win 4).cut (grid1.coords t) ((dat1 (F := Ideal) V c).after 4 t) = _
  rw [after1_4]
  unfold out1_4
  rw [View.canon_unit_zero zeroOffsets]
  simp only [View.ld_unit_zero (S := S8000x3) zeroOffsets, View.ld_unit_zero (S := S3x16) zeroOffsets,
    View.ld_unit_zero (S := S16x16) zeroOffsets, View.ld_unit_zero (S := S16x3) zeroOffsets]
  obtain ⟨e00, e01, e10, e11, e20, e21, e30, e31, e40, e41⟩ := blockIndex1 t
  have ht : t.val < 125 := t.isLt
  funext y
  obtain ⟨p, q, rfl⟩ : ∃ (p : Fin 8000) (q : Fin 3), y = ix2 p q := ⟨y 0, y 1, eq_ix2 y⟩
  have hemb : ((cfg1.win 4).blk t).view.emb (ix2 p q) = ix2 (⟨8000 * t.val + p.val, by omega⟩ : Fin 1000000) q := by
    funext a; apply Fin.ext
    match a with
    | ⟨0, _⟩ => show win1_4.index t (0 : Fin 2) * 8000 + 1 * p.val = 8000 * t.val + p.val; omega
    | ⟨1, _⟩ => show win1_4.index t (1 : Fin 2) * 3 + 1 * q.val = q.val; omega
  show k1_pay1 (F := Ideal) (iblk1 V c 0 t) (iblk1 V c 1 t) (iblk1 V c 2 t) (iblk1 V c 3 t) (ix2 p q)
    = Cert.MeshSpec.perceptron (F := Ideal) (V c main_v51) (V c main_arg5) (V c main_arg6) (V c main_arg7)
        (((cfg1.win 4).blk t).view.emb (ix2 p q))
  rw [hemb]
  refine payload1_eq_perceptron _ _ _ _ _ _ _ _ p _ q (fun a => ?_) (fun a b => ?_) (fun a b => ?_) (fun a b => ?_)
  · show V c main_v51 (((cfg1.win 0).blk t).view.emb (ix2 p a)) = V c main_v51 (ix2 _ a)
    refine congrArg _ (funext fun ax => Fin.ext ?_)
    match ax with
    | ⟨0, _⟩ => show win1_0.index t (0 : Fin 2) * 8000 + 1 * p.val = 8000 * t.val + p.val; omega
    | ⟨1, _⟩ => show win1_0.index t (1 : Fin 2) * 3 + 1 * a.val = a.val; omega
  · show V c main_arg5 (((cfg1.win 1).blk t).view.emb (ix2 a b)) = V c main_arg5 (ix2 a b)
    refine congrArg _ (funext fun ax => Fin.ext ?_)
    match ax with
    | ⟨0, _⟩ => show win1_1.index t (0 : Fin 2) * 3 + 1 * a.val = a.val; omega
    | ⟨1, _⟩ => show win1_1.index t (1 : Fin 2) * 16 + 1 * b.val = b.val; omega
  · show V c main_arg6 (((cfg1.win 2).blk t).view.emb (ix2 a b)) = V c main_arg6 (ix2 a b)
    refine congrArg _ (funext fun ax => Fin.ext ?_)
    match ax with
    | ⟨0, _⟩ => show win1_2.index t (0 : Fin 2) * 16 + 1 * a.val = a.val; omega
    | ⟨1, _⟩ => show win1_2.index t (1 : Fin 2) * 16 + 1 * b.val = b.val; omega
  · show V c main_arg7 (((cfg1.win 3).blk t).view.emb (ix2 a b)) = V c main_arg7 (ix2 a b)
    refine congrArg _ (funext fun ax => Fin.ext ?_)
    match ax with
    | ⟨0, _⟩ => show win1_3.index t (0 : Fin 2) * 16 + 1 * a.val = a.val; omega
    | ⟨1, _⟩ => show win1_3.index t (1 : Fin 2) * 3 + 1 * b.val = b.val; omega

/-- An index of the written array is in point `t`'s block iff each coordinate is in the block's range on its axis. -/
theorem mem_block1 (t : Fin cfg1.N) (i : S1000000x3.Idx) :
    i ∈ ((cfg1.win 4).blk t).view.set ↔ ∀ a : Fin 2, win1_4.index t a * S8000x3.size a ≤ (i a).val
      ∧ (i a).val < win1_4.index t a * S8000x3.size a + S8000x3.size a := by
  show i ∈ ((View.whole main_v52).slice (win1_4.rect t)).set ↔ _
  rw [View.set_slice_whole, Rect.mem_set_unit]
  exact Iff.rfl

/-- Every vertex row `r` is in the block of point `r / 8000`, and every point writes back. -/
theorem covered1 (i : S1000000x3.Idx) :
    ∃ t : Fin cfg1.N, (cfg1.win 4).flush t = true ∧ i ∈ ((cfg1.win 4).blk t).view.set := by
  have hi0 : (i 0).val < 1000000 := (i 0).isLt
  have hi1 : (i 1).val < 3 := (i 1).isLt
  obtain ⟨t, ht⟩ : ∃ t : Fin cfg1.N, t.val = (i 0).val / 8000 := ⟨⟨(i 0).val / 8000, by show _ < 125; omega⟩, rfl⟩
  obtain ⟨-, -, -, -, -, -, -, -, e40, e41⟩ := blockIndex1 t
  refine ⟨t, flush1_4 t, ?_⟩
  rw [mem_block1]
  intro a
  match a with
  | ⟨0, _⟩ =>
    show win1_4.index t (0 : Fin 2) * 8000 ≤ (i 0).val ∧ (i 0).val < win1_4.index t (0 : Fin 2) * 8000 + 8000
    omega
  | ⟨1, _⟩ =>
    show win1_4.index t (1 : Fin 2) * 3 ≤ (i 1).val ∧ (i 1).val < win1_4.index t (1 : Fin 2) * 3 + 3
    omega

/-- THE SECOND LAUNCH'S VALUE: after the last point its output array holds the perceptron of the vertex array and the
    weights it was entered with. -/
theorem launch1_value : Cert.KernelIdeal.ResultValue.SecondLaunch := fun V c =>
  (dat1 (F := Ideal) V c).arrAt_eq_of_cover 4 (target1 V c) (fun t _ => flushed1_eq V c t) covered1

end Launch1

end Cert.KernelIdeal.LaunchValue

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefRun.lean ====
/-
  The reference program's run.

  The reference is one straight line of whole-array operations: the edge table's two rows, then twice — a per-vertex
  perceptron (three matrix products with a leaky rectifier between them), the in-degrees of the vertices with their
  inverse square roots and the edges' weights, and the move of every vertex by the weighted differences gathered along its
  incoming edges. Three small functions are outlined in the printed program (the rectifier, which itself calls a select,
  and a select against a scalar); their operations are listed here at their call sites over the buffers each call names.

  The line is cut into seven consecutive stretches. What the buffers hold after a stretch is computed from ARBITRARY
  contents before it — the stretch's result as the specification's function of the buffers it reads, and every buffer a
  later stretch still reads left as it was — and the seven are then composed from the end backwards. The result is the
  specification's two layers of the launch contents of the eight arguments, which no operation writes.
-/
import proofs.«171633_j8177617732323_2_alg».proof.Proof.Gen.ReferenceIdeal
import proofs.«171633_j8177617732323_2_alg».proof.Proof.MeshSpec
import proofs.«171633_j8177617732323_2_alg».proof.Proof.LibAfterAppend
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-! ## The operations, in order, in seven stretches -/

/-- The edge table's two rows, each as a flat row of vertex numbers. -/
abbrev edges : List (HloOp τ sig (Elt F)) :=
  [ unary main_arg1 main_v0 ((extractStridedSlice S1x3000000 ![0, 0] · slices_S2x3000000_S1x3000000_0_0) : (⟨S2x3000000, .i32⟩ : BufTy).Contents (Elt F) → (⟨S1x3000000, .i32⟩ : BufTy).Contents (Elt F)),
    reshape main_v0 main_v1 rfl shapeCasts_S1x3000000_S3000000,
    unary main_arg1 main_v2 ((extractStridedSlice S1x3000000 ![1, 0] · slices_S2x3000000_S1x3000000_1_0) : (⟨S2x3000000, .i32⟩ : BufTy).Contents (Elt F) → (⟨S1x3000000, .i32⟩ : BufTy).Contents (Elt F)),
    reshape main_v2 main_v3 rfl shapeCasts_S1x3000000_S3000000 ]

/-- The first layer's perceptron: three products, the rectifier (its outlined body, seven operations) after the first two. -/
abbrev percA : List (HloOp τ sig (Elt F)) :=
  [ binary main_arg0 main_arg2 main_v4 ((fun l r => Host.dotGeneral dot_S1000000x3_S3x16_S1000000x16_1_0_0_1_n_n none l r) : (⟨S1000000x3, .f32⟩ : BufTy).Contents (Elt F) → (⟨S3x16, .f32⟩ : BufTy).Contents (Elt F) → (⟨S1000000x16, .f32⟩ : BufTy).Contents (Elt F)),
    nullary main_cst (constant S_ .f32 0x3C23D70A#32),
    TRef.nullary main_call0.cst (constant S_ .f32 0x00000000#32),
    TRef.unary main_call0.cst main_call0.v0 (broadcastInDim S1000000x16 ![] bcast_S_S1000000x16),
    TRef.binary (.of main_v4 : TRef sig ⟨S1000000x16, .f32⟩) main_call0.v0 main_call0.v1 (cmpf .oge),
    TRef.unary (.of main_cst : TRef sig ⟨S_, .f32⟩) main_call0.v2 id,
    TRef.unary main_call0.v2 main_call0.v3 (broadcastInDim S1000000x16 ![] bcast_S_S1000000x16),
    TRef.binary main_call0.v3 (.of main_v4 : TRef sig ⟨S1000000x16, .f32⟩) main_call0.v4 mulf,
    TRef.ternary main_call0.v1 (.of main_v4 : TRef sig ⟨S1000000x16, .f32⟩) main_call0.v4 main_call0.call0.v0 select,
    binary main_v5 main_arg3 main_v6 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    nullary main_cst_0 (constant S_ .f32 0x3C23D70A#32),
    TRef.nullary main_call1.cst (constant S_ .f32 0x00000000#32),
    TRef.unary main_call1.cst main_call1.v0 (broadcastInDim S1000000x16 ![] bcast_S_S1000000x16),
    TRef.binary (.of main_v6 : TRef sig ⟨S1000000x16, .f32⟩) main_call1.v0 main_call1.v1 (cmpf .oge),
    TRef.unary (.of main_cst_0 : TRef sig ⟨S_, .f32⟩) main_call1.v2 id,
    TRef.unary main_call1.v2 main_call1.v3 (broadcastInDim S1000000x16 ![] bcast_S_S1000000x16),
    TRef.binary main_call1.v3 (.of main_v6 : TRef sig ⟨S1000000x16, .f32⟩) main_call1.v4 mulf,
    TRef.ternary main_call1.v1 (.of main_v6 : TRef sig ⟨S1000000x16, .f32⟩) main_call1.v4 main_call1.call0.v0 select,
    binary main_v7 main_arg4 main_v8 ((fun l r => Host.dotGeneral dot_S1000000x16_S16x3_S1000000x3_1_0_0_1_n_n none l r) : (⟨S1000000x16, .f32⟩ : BufTy).Contents (Elt F) → (⟨S16x3, .f32⟩ : BufTy).Contents (Elt F) → (⟨S1000000x3, .f32⟩ : BufTy).Contents (Elt F)) ]

/-- The first layer's in-degrees, their inverse square roots (the outlined select's three operations among them) and the edge weights. -/
abbrev weightA : List (HloOp τ sig (Elt F)) :=
  [ nullary main_cst_1 (constant S_ .f32 0x3F800000#32),
    unary main_cst_1 main_v9 (broadcastInDim S3000000 ![] bcast_S_S3000000 : (⟨S_, .f32⟩ : BufTy).Contents (Elt F) → (⟨S3000000, .f32⟩ : BufTy).Contents (Elt F)),
    nullary main_cst_2 (constant S_ .f32 0x00000000#32),
    unary main_cst_2 main_v10 (broadcastInDim S1000000 ![] bcast_S_S1000000 : (⟨S_, .f32⟩ : BufTy).Contents (Elt F) → (⟨S1000000, .f32⟩ : BufTy).Contents (Elt F)),
    unary main_v3 main_v11 (broadcastInDim S3000000x1 ![0] bcast_S3000000_S3000000x1_0 : (⟨S3000000, .i32⟩ : BufTy).Contents (Elt F) → (⟨S3000000x1, .i32⟩ : BufTy).Contents (Elt F)),
    ternary main_v10 main_v11 main_v9 main_v12 ((fun x i u => Host.scatterAdd scatter_S1000000_S3000000x1_S3000000_n_0_0_1 x i u) : (⟨S1000000, .f32⟩ : BufTy).Contents (Elt F) → (⟨S3000000x1, .i32⟩ : BufTy).Contents (Elt F) → (⟨S3000000, .f32⟩ : BufTy).Contents (Elt F) → (⟨S1000000, .f32⟩ : BufTy).Contents (Elt F)),
    nullary main_cst_3 (constant S_ .f32 0x00000000#32),
    unary main_cst_3 main_v13 (broadcastInDim S1000000 ![] bcast_S_S1000000 : (⟨S_, .f32⟩ : BufTy).Contents (Elt F) → (⟨S1000000, .f32⟩ : BufTy).Contents (Elt F)),
    binary main_v12 main_v13 main_v14 (cmpf .ogt : (⟨S1000000, .f32⟩ : BufTy).Contents (Elt F) → (⟨S1000000, .f32⟩ : BufTy).Contents (Elt F) → (⟨S1000000, .i1⟩ : BufTy).Contents (Elt F)),
    nullary main_cst_4 (constant S_ .f32 0x2B8CBCCC#32),
    unary main_cst_4 main_v15 (broadcastInDim S1000000 ![] bcast_S_S1000000 : (⟨S_, .f32⟩ : BufTy).Contents (Elt F) → (⟨S1000000, .f32⟩ : BufTy).Contents (Elt F)),
    binary main_v12 main_v15 main_v16 (maximumf : (⟨S1000000, .f32⟩ : BufTy).Contents (Elt F) → (⟨S1000000, .f32⟩ : BufTy).Contents (Elt F) → (⟨S1000000, .f32⟩ : BufTy).Contents (Elt F)),
    unary main_v16 main_v17 (Host.rsqrt : (⟨S1000000, .f32⟩ : BufTy).Contents (Elt F) → (⟨S1000000, .f32⟩ : BufTy).Contents (Elt F)),
    nullary main_cst_5 (constant S_ .f32 0x00000000#32),
    TRef.unary (.of main_cst_5 : TRef sig ⟨S_, .f32⟩) main_call2.v0 id,
    TRef.unary main_call2.v0 main_call2.v1 (broadcastInDim S1000000 ![] bcast_S_S1000000),
    TRef.ternary (.of main_v14 : TRef sig ⟨S1000000, .i1⟩) (.of main_v17 : TRef sig ⟨S1000000, .f32⟩) main_call2.v1 main_call2.v2 select,
    nullary main_c (constantI S_ 32 0#32),
    unary main_c main_v19 (broadcastInDim S3000000 ![] bcast_S_S3000000 : (⟨S_, .i32⟩ : BufTy).Contents (Elt F) → (⟨S3000000, .i32⟩ : BufTy).Contents (Elt F)),
    binary main_v1 main_v19 main_v20 (cmpi .slt : (⟨S3000000, .i32⟩ : BufTy).Contents (Elt F) → (⟨S3000000, .i32⟩ : BufTy).Contents (Elt F) → (⟨S3000000, .i1⟩ : BufTy).Contents (Elt F)),
    nullary main_c_6 (constantI S_ 32 1000000#32),
    unary main_c_6 main_v21 (broadcastInDim S3000000 ![] bcast_S_S3000000 : (⟨S_, .i32⟩ : BufTy).Contents (Elt F) → (⟨S3000000, .i32⟩ : BufTy).Contents (Elt F)),
    binary main_v1 main_v21 main_v22 (addi : (⟨S3000000, .i32⟩ : BufTy).Contents (Elt F) → (⟨S3000000, .i32⟩ : BufTy).Contents (Elt F) → (⟨S3000000, .i32⟩ : BufTy).Contents (Elt F)),
    ternary main_v20 main_v22 main_v1 main_v23 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v23 main_v24 (broadcastInDim S3000000x1 ![0] bcast_S3000000_S3000000x1_0 : (⟨S3000000, .i32⟩ : BufTy).Contents (Elt F) → (⟨S3000000x1, .i32⟩ : BufTy).Contents (Elt F)),
    binary main_v18 main_v24 main_v25 ((fun x i => Host.gather gather_S1000000_S3000000x1_S3000000_n_0_n_n_0_1_1 x i) : (⟨S1000000, .f32⟩ : BufTy).Contents (Elt F) → (⟨S3000000x1, .i32⟩ : BufTy).Contents (Elt F) → (⟨S3000000, .f32⟩ : BufTy).Contents (Elt F)),
    nullary main_c_7 (constantI S_ 32 0#32),
    unary main_c_7 main_v26 (broadcastInDim S3000000 ![] bcast_S_S3000000 : (⟨S_, .i32⟩ : BufTy).Contents (Elt F) → (⟨S3000000, .i32⟩ : BufTy).Contents (Elt F)),
    binary main_v3 main_v26 main_v27 (cmpi .slt : (⟨S3000000, .i32⟩ : BufTy).Contents (Elt F) → (⟨S3000000, .i32⟩ : BufTy).Contents (Elt F) → (⟨S3000000, .i1⟩ : BufTy).Contents (Elt F)),
    nullary main_c_8 (constantI S_ 32 1000000#32),
    unary main_c_8 main_v28 (broadcastInDim S3000000 ![] bcast_S_S3000000 : (⟨S_, .i32⟩ : BufTy).Contents (Elt F) → (⟨S3000000, .i32⟩ : BufTy).Contents (Elt F)),
    binary main_v3 main_v28 main_v29 (addi : (⟨S3000000, .i32⟩ : BufTy).Contents (Elt F) → (⟨S3000000, .i32⟩ : BufTy).Contents (Elt F) → (⟨S3000000, .i32⟩ : BufTy).Contents (Elt F)),
    ternary main_v27 main_v29 main_v3 main_v30 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v30 main_v31 (broadcastInDim S3000000x1 ![0] bcast_S3000000_S3000000x1_0 : (⟨S3000000, .i32⟩ : BufTy).Contents (Elt F) → (⟨S3000000x1, .i32⟩ : BufTy).Contents (Elt F)),
    binary main_v18 main_v31 main_v32 ((fun x i => Host.gather gather_S1000000_S3000000x1_S3000000_n_0_n_n_0_1_1 x i) : (⟨S1000000, .f32⟩ : BufTy).Contents (Elt F) → (⟨S3000000x1, .i32⟩ : BufTy).Contents (Elt F) → (⟨S3000000, .f32⟩ : BufTy).Contents (Elt F)),
    binary main_v25 main_v32 main_v33 (mulf : (⟨S3000000, .f32⟩ : BufTy).Contents (Elt F) → (⟨S3000000, .f32⟩ : BufTy).Contents (Elt F) → (⟨S3000000, .f32⟩ : BufTy).Contents (Elt F)) ]

/-- The first layer's move: the weight's column, both gathers of the perceptron's values, their weighted difference scattered to the targets and added to the coordinates. -/
abbrev tailA : List (HloOp τ sig (Elt F)) :=
  [ unary main_v33 main_v34 (broadcastInDim S3000000x1 ![0] bcast_S3000000_S3000000x1_0 : (⟨S3000000, .f32⟩ : BufTy).Contents (Elt F) → (⟨S3000000x1, .f32⟩ : BufTy).Contents (Elt F)),
    nullary main_c_9 (constantI S_ 32 0#32),
    unary main_c_9 main_v35 (broadcastInDim S3000000 ![] bcast_S_S3000000 : (⟨S_, .i32⟩ : BufTy).Contents (Elt F) → (⟨S3000000, .i32⟩ : BufTy).Contents (Elt F)),
    binary main_v1 main_v35 main_v36 (cmpi .slt : (⟨S3000000, .i32⟩ : BufTy).Contents (Elt F) → (⟨S3000000, .i32⟩ : BufTy).Contents (Elt F) → (⟨S3000000, .i1⟩ : BufTy).Contents (Elt F)),
    nullary main_c_10 (constantI S_ 32 1000000#32),
    unary main_c_10 main_v37 (broadcastInDim S3000000 ![] bcast_S_S3000000 : (⟨S_, .i32⟩ : BufTy).Contents (Elt F) → (⟨S3000000, .i32⟩ : BufTy).Contents (Elt F)),
    binary main_v1 main_v37 main_v38 (addi : (⟨S3000000, .i32⟩ : BufTy).Contents (Elt F) → (⟨S3000000, .i32⟩ : BufTy).Contents (Elt F) → (⟨S3000000, .i32⟩ : BufTy).Contents (Elt F)),
    ternary main_v36 main_v38 main_v1 main_v39 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v39 main_v40 (broadcastInDim S3000000x1 ![0] bcast_S3000000_S3000000x1_0 : (⟨S3000000, .i32⟩ : BufTy).Contents (Elt F) → (⟨S3000000x1, .i32⟩ : BufTy).Contents (Elt F)),
    binary main_v8 main_v40 main_v41 ((fun x i => Host.gather gather_S1000000x3_S3000000x1_S3000000x3_1_0_n_n_0_1_13 x i) : (⟨S1000000x3, .f32⟩ : BufTy).Contents (Elt F) → (⟨S3000000x1, .i32⟩ : BufTy).Contents (Elt F) → (⟨S3000000x3, .f32⟩ : BufTy).Contents (Elt F)),
    nullary main_c_11 (constantI S_ 32 0#32),
    unary main_c_11 main_v42 (broadcastInDim S3000000 ![] bcast_S_S3000000 : (⟨S_, .i32⟩ : BufTy).Contents (Elt F) → (⟨S3000000, .i32⟩ : BufTy).Contents (Elt F)),
    binary main_v3 main_v42 main_v43 (cmpi .slt : (⟨S3000000, .i32⟩ : BufTy).Contents (Elt F) → (⟨S3000000, .i32⟩ : BufTy).Contents (Elt F) → (⟨S3000000, .i1⟩ : BufTy).Contents (Elt F)),
    nullary main_c_12 (constantI S_ 32 1000000#32),
    unary main_c_12 main_v44 (broadcastInDim S3000000 ![] bcast_S_S3000000 : (⟨S_, .i32⟩ : BufTy).Contents (Elt F) → (⟨S3000000, .i32⟩ : BufTy).Contents (Elt F)),
    binary main_v3 main_v44 main_v45 (addi : (⟨S3000000, .i32⟩ : BufTy).Contents (Elt F) → (⟨S3000000, .i32⟩ : BufTy).Contents (Elt F) → (⟨S3000000, .i32⟩ : BufTy).Contents (Elt F)),
    ternary main_v43 main_v45 main_v3 main_v46 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v46 main_v47 (broadcastInDim S3000000x1 ![0] bcast_S3000000_S3000000x1_0 : (⟨S3000000, .i32⟩ : BufTy).Contents (Elt F) → (⟨S3000000x1, .i32⟩ : BufTy).Contents (Elt F)),
    binary main_v8 main_v47 main_v48 ((fun x i => Host.gather gather_S1000000x3_S3000000x1_S3000000x3_1_0_n_n_0_1_13 x i) : (⟨S1000000x3, .f32⟩ : BufTy).Contents (Elt F) → (⟨S3000000x1, .i32⟩ : BufTy).Contents (Elt F) → (⟨S3000000x3, .f32⟩ : BufTy).Contents (Elt F)),
    binary main_v41 main_v48 main_v49 (subf : (⟨S3000000x3, .f32⟩ : BufTy).Contents (Elt F) → (⟨S3000000x3, .f32⟩ : BufTy).Contents (Elt F) → (⟨S3000000x3, .f32⟩ : BufTy).Contents (Elt F)),
    unary main_v34 main_v50 (broadcastInDim S3000000x3 ![0, 1] bcast_S3000000x1_S3000000x3_0_1 : (⟨S3000000x1, .f32⟩ : BufTy).Contents (Elt F) → (⟨S3000000x3, .f32⟩ : BufTy).Contents (Elt F)),
    binary main_v50 main_v49 main_v51 (mulf : (⟨S3000000x3, .f32⟩ : BufTy).Contents (Elt F) → (⟨S3000000x3, .f32⟩ : BufTy).Contents (Elt F) → (⟨S3000000x3, .f32⟩ : BufTy).Contents (Elt F)),
    nullary main_cst_13 (constant S_ .f32 0x00000000#32),
    unary main_cst_13 main_v52 (broadcastInDim S1000000x3 ![] bcast_S_S1000000x3 : (⟨S_, .f32⟩ : BufTy).Contents (Elt F) → (⟨S1000000x3, .f32⟩ : BufTy).Contents (Elt F)),
    unary main_v3 main_v53 (broadcastInDim S3000000x1 ![0] bcast_S3000000_S3000000x1_0 : (⟨S3000000, .i32⟩ : BufTy).Contents (Elt F) → (⟨S3000000x1, .i32⟩ : BufTy).Contents (Elt F)),
    ternary main_v52 main_v53 main_v51 main_v54 ((fun x i u => Host.scatterAdd scatter_S1000000x3_S3000000x1_S3000000x3_1_0_0_1 x i u) : (⟨S1000000x3, .f32⟩ : BufTy).Contents (Elt F) → (⟨S3000000x1, .i32⟩ : BufTy).Contents (Elt F) → (⟨S3000000x3, .f32⟩ : BufTy).Contents (Elt F) → (⟨S1000000x3, .f32⟩ : BufTy).Contents (Elt F)),
    binary main_arg0 main_v54 main_v55 (addf : (⟨S1000000x3, .f32⟩ : BufTy).Contents (Elt F) → (⟨S1000000x3, .f32⟩ : BufTy).Contents (Elt F) → (⟨S1000000x3, .f32⟩ : BufTy).Contents (Elt F)) ]

/-- The second layer's perceptron, over the moved coordinates. -/
abbrev percB : List (HloOp τ sig (Elt F)) :=
  [ binary main_v55 main_arg5 main_v56 ((fun l r => Host.dotGeneral dot_S1000000x3_S3x16_S1000000x16_1_0_0_1_n_n none l r) : (⟨S1000000x3, .f32⟩ : BufTy).Contents (Elt F) → (⟨S3x16, .f32⟩ : BufTy).Contents (Elt F) → (⟨S1000000x16, .f32⟩ : BufTy).Contents (Elt F)),
    nullary main_cst_14 (constant S_ .f32 0x3C23D70A#32),
    TRef.nullary main_call3.cst (constant S_ .f32 0x00000000#32),
    TRef.unary main_call3.cst main_call3.v0 (broadcastInDim S1000000x16 ![] bcast_S_S1000000x16),
    TRef.binary (.of main_v56 : TRef sig ⟨S1000000x16, .f32⟩) main_call3.v0 main_call3.v1 (cmpf .oge),
    TRef.unary (.of main_cst_14 : TRef sig ⟨S_, .f32⟩) main_call3.v2 id,
    TRef.unary main_call3.v2 main_call3.v3 (broadcastInDim S1000000x16 ![] bcast_S_S1000000x16),
    TRef.binary main_call3.v3 (.of main_v56 : TRef sig ⟨S1000000x16, .f32⟩) main_call3.v4 mulf,
    TRef.ternary main_call3.v1 (.of main_v56 : TRef sig ⟨S1000000x16, .f32⟩) main_call3.v4 main_call3.call0.v0 select,
    binary main_v57 main_arg6 main_v58 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    nullary main_cst_15 (constant S_ .f32 0x3C23D70A#32),
    TRef.nullary main_call4.cst (constant S_ .f32 0x00000000#32),
    TRef.unary main_call4.cst main_call4.v0 (broadcastInDim S1000000x16 ![] bcast_S_S1000000x16),
    TRef.binary (.of main_v58 : TRef sig ⟨S1000000x16, .f32⟩) main_call4.v0 main_call4.v1 (cmpf .oge),
    TRef.unary (.of main_cst_15 : TRef sig ⟨S_, .f32⟩) main_call4.v2 id,
    TRef.unary main_call4.v2 main_call4.v3 (broadcastInDim S1000000x16 ![] bcast_S_S1000000x16),
    TRef.binary main_call4.v3 (.of main_v58 : TRef sig ⟨S1000000x16, .f32⟩) main_call4.v4 mulf,
    TRef.ternary main_call4.v1 (.of main_v58 : TRef sig ⟨S1000000x16, .f32⟩) main_call4.v4 main_call4.call0.v0 select,
    binary main_v59 main_arg7 main_v60 ((fun l r => Host.dotGeneral dot_S1000000x16_S16x3_S1000000x3_1_0_0_1_n_n none l r) : (⟨S1000000x16, .f32⟩ : BufTy).Contents (Elt F) → (⟨S16x3, .f32⟩ : BufTy).Contents (Elt F) → (⟨S1000000x3, .f32⟩ : BufTy).Contents (Elt F)) ]

/-- The second layer's in-degrees, inverse square roots and edge weights: the same edge table again, into buffers of its own. -/
abbrev weightB : List (HloOp τ sig (Elt F)) :=
  [ nullary main_cst_16 (constant S_ .f32 0x3F800000#32),
    unary main_cst_16 main_v61 (broadcastInDim S3000000 ![] bcast_S_S3000000 : (⟨S_, .f32⟩ : BufTy).Contents (Elt F) → (⟨S3000000, .f32⟩ : BufTy).Contents (Elt F)),
    nullary main_cst_17 (constant S_ .f32 0x00000000#32),
    unary main_cst_17 main_v62 (broadcastInDim S1000000 ![] bcast_S_S1000000 : (⟨S_, .f32⟩ : BufTy).Contents (Elt F) → (⟨S1000000, .f32⟩ : BufTy).Contents (Elt F)),
    unary main_v3 main_v63 (broadcastInDim S3000000x1 ![0] bcast_S3000000_S3000000x1_0 : (⟨S3000000, .i32⟩ : BufTy).Contents (Elt F) → (⟨S3000000x1, .i32⟩ : BufTy).Contents (Elt F)),
    ternary main_v62 main_v63 main_v61 main_v64 ((fun x i u => Host.scatterAdd scatter_S1000000_S3000000x1_S3000000_n_0_0_1 x i u) : (⟨S1000000, .f32⟩ : BufTy).Contents (Elt F) → (⟨S3000000x1, .i32⟩ : BufTy).Contents (Elt F) → (⟨S3000000, .f32⟩ : BufTy).Contents (Elt F) → (⟨S1000000, .f32⟩ : BufTy).Contents (Elt F)),
    nullary main_cst_18 (constant S_ .f32 0x00000000#32),
    unary main_cst_18 main_v65 (broadcastInDim S1000000 ![] bcast_S_S1000000 : (⟨S_, .f32⟩ : BufTy).Contents (Elt F) → (⟨S1000000, .f32⟩ : BufTy).Contents (Elt F)),
    binary main_v64 main_v65 main_v66 (cmpf .ogt : (⟨S1000000, .f32⟩ : BufTy).Contents (Elt F) → (⟨S1000000, .f32⟩ : BufTy).Contents (Elt F) → (⟨S1000000, .i1⟩ : BufTy).Contents (Elt F)),
    nullary main_cst_19 (constant S_ .f32 0x2B8CBCCC#32),
    unary main_cst_19 main_v67 (broadcastInDim S1000000 ![] bcast_S_S1000000 : (⟨S_, .f32⟩ : BufTy).Contents (Elt F) → (⟨S1000000, .f32⟩ : BufTy).Contents (Elt F)),
    binary main_v64 main_v67 main_v68 (maximumf : (⟨S1000000, .f32⟩ : BufTy).Contents (Elt F) → (⟨S1000000, .f32⟩ : BufTy).Contents (Elt F) → (⟨S1000000, .f32⟩ : BufTy).Contents (Elt F)),
    unary main_v68 main_v69 (Host.rsqrt : (⟨S1000000, .f32⟩ : BufTy).Contents (Elt F) → (⟨S1000000, .f32⟩ : BufTy).Contents (Elt F)),
    nullary main_cst_20 (constant S_ .f32 0x00000000#32),
    TRef.unary (.of main_cst_20 : TRef sig ⟨S_, .f32⟩) main_call5.v0 id,
    TRef.unary main_call5.v0 main_call5.v1 (broadcastInDim S1000000 ![] bcast_S_S1000000),
    TRef.ternary (.of main_v66 : TRef sig ⟨S1000000, .i1⟩) (.of main_v69 : TRef sig ⟨S1000000, .f32⟩) main_call5.v1 main_call5.v2 select,
    nullary main_c_21 (constantI S_ 32 0#32),
    unary main_c_21 main_v71 (broadcastInDim S3000000 ![] bcast_S_S3000000 : (⟨S_, .i32⟩ : BufTy).Contents (Elt F) → (⟨S3000000, .i32⟩ : BufTy).Contents (Elt F)),
    binary main_v1 main_v71 main_v72 (cmpi .slt : (⟨S3000000, .i32⟩ : BufTy).Contents (Elt F) → (⟨S3000000, .i32⟩ : BufTy).Contents (Elt F) → (⟨S3000000, .i1⟩ : BufTy).Contents (Elt F)),
    nullary main_c_22 (constantI S_ 32 1000000#32),
    unary main_c_22 main_v73 (broadcastInDim S3000000 ![] bcast_S_S3000000 : (⟨S_, .i32⟩ : BufTy).Contents (Elt F) → (⟨S3000000, .i32⟩ : BufTy).Contents (Elt F)),
    binary main_v1 main_v73 main_v74 (addi : (⟨S3000000, .i32⟩ : BufTy).Contents (Elt F) → (⟨S3000000, .i32⟩ : BufTy).Contents (Elt F) → (⟨S3000000, .i32⟩ : BufTy).Contents (Elt F)),
    ternary main_v72 main_v74 main_v1 main_v75 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v75 main_v76 (broadcastInDim S3000000x1 ![0] bcast_S3000000_S3000000x1_0 : (⟨S3000000, .i32⟩ : BufTy).Contents (Elt F) → (⟨S3000000x1, .i32⟩ : BufTy).Contents (Elt F)),
    binary main_v70 main_v76 main_v77 ((fun x i => Host.gather gather_S1000000_S3000000x1_S3000000_n_0_n_n_0_1_1 x i) : (⟨S1000000, .f32⟩ : BufTy).Contents (Elt F) → (⟨S3000000x1, .i32⟩ : BufTy).Contents (Elt F) → (⟨S3000000, .f32⟩ : BufTy).Contents (Elt F)),
    nullary main_c_23 (constantI S_ 32 0#32),
    unary main_c_23 main_v78 (broadcastInDim S3000000 ![] bcast_S_S3000000 : (⟨S_, .i32⟩ : BufTy).Contents (Elt F) → (⟨S3000000, .i32⟩ : BufTy).Contents (Elt F)),
    binary main_v3 main_v78 main_v79 (cmpi .slt : (⟨S3000000, .i32⟩ : BufTy).Contents (Elt F) → (⟨S3000000, .i32⟩ : BufTy).Contents (Elt F) → (⟨S3000000, .i1⟩ : BufTy).Contents (Elt F)),
    nullary main_c_24 (constantI S_ 32 1000000#32),
    unary main_c_24 main_v80 (broadcastInDim S3000000 ![] bcast_S_S3000000 : (⟨S_, .i32⟩ : BufTy).Contents (Elt F) → (⟨S3000000, .i32⟩ : BufTy).Contents (Elt F)),
    binary main_v3 main_v80 main_v81 (addi : (⟨S3000000, .i32⟩ : BufTy).Contents (Elt F) → (⟨S3000000, .i32⟩ : BufTy).Contents (Elt F) → (⟨S3000000, .i32⟩ : BufTy).Contents (Elt F)),
    ternary main_v79 main_v81 main_v3 main_v82 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v82 main_v83 (broadcastInDim S3000000x1 ![0] bcast_S3000000_S3000000x1_0 : (⟨S3000000, .i32⟩ : BufTy).Contents (Elt F) → (⟨S3000000x1, .i32⟩ : BufTy).Contents (Elt F)),
    binary main_v70 main_v83 main_v84 ((fun x i => Host.gather gather_S1000000_S3000000x1_S3000000_n_0_n_n_0_1_1 x i) : (⟨S1000000, .f32⟩ : BufTy).Contents (Elt F) → (⟨S3000000x1, .i32⟩ : BufTy).Contents (Elt F) → (⟨S3000000, .f32⟩ : BufTy).Contents (Elt F)),
    binary main_v77 main_v84 main_v85 (mulf : (⟨S3000000, .f32⟩ : BufTy).Contents (Elt F) → (⟨S3000000, .f32⟩ : BufTy).Contents (Elt F) → (⟨S3000000, .f32⟩ : BufTy).Contents (Elt F)) ]

/-- The second layer's move, which is the result. -/
abbrev tailB : List (HloOp τ sig (Elt F)) :=
  [ unary main_v85 main_v86 (broadcastInDim S3000000x1 ![0] bcast_S3000000_S3000000x1_0 : (⟨S3000000, .f32⟩ : BufTy).Contents (Elt F) → (⟨S3000000x1, .f32⟩ : BufTy).Contents (Elt F)),
    nullary main_c_25 (constantI S_ 32 0#32),
    unary main_c_25 main_v87 (broadcastInDim S3000000 ![] bcast_S_S3000000 : (⟨S_, .i32⟩ : BufTy).Contents (Elt F) → (⟨S3000000, .i32⟩ : BufTy).Contents (Elt F)),
    binary main_v1 main_v87 main_v88 (cmpi .slt : (⟨S3000000, .i32⟩ : BufTy).Contents (Elt F) → (⟨S3000000, .i32⟩ : BufTy).Contents (Elt F) → (⟨S3000000, .i1⟩ : BufTy).Contents (Elt F)),
    nullary main_c_26 (constantI S_ 32 1000000#32),
    unary main_c_26 main_v89 (broadcastInDim S3000000 ![] bcast_S_S3000000 : (⟨S_, .i32⟩ : BufTy).Contents (Elt F) → (⟨S3000000, .i32⟩ : BufTy).Contents (Elt F)),
    binary main_v1 main_v89 main_v90 (addi : (⟨S3000000, .i32⟩ : BufTy).Contents (Elt F) → (⟨S3000000, .i32⟩ : BufTy).Contents (Elt F) → (⟨S3000000, .i32⟩ : BufTy).Contents (Elt F)),
    ternary main_v88 main_v90 main_v1 main_v91 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v91 main_v92 (broadcastInDim S3000000x1 ![0] bcast_S3000000_S3000000x1_0 : (⟨S3000000, .i32⟩ : BufTy).Contents (Elt F) → (⟨S3000000x1, .i32⟩ : BufTy).Contents (Elt F)),
    binary main_v60 main_v92 main_v93 ((fun x i => Host.gather gather_S1000000x3_S3000000x1_S3000000x3_1_0_n_n_0_1_13 x i) : (⟨S1000000x3, .f32⟩ : BufTy).Contents (Elt F) → (⟨S3000000x1, .i32⟩ : BufTy).Contents (Elt F) → (⟨S3000000x3, .f32⟩ : BufTy).Contents (Elt F)),
    nullary main_c_27 (constantI S_ 32 0#32),
    unary main_c_27 main_v94 (broadcastInDim S3000000 ![] bcast_S_S3000000 : (⟨S_, .i32⟩ : BufTy).Contents (Elt F) → (⟨S3000000, .i32⟩ : BufTy).Contents (Elt F)),
    binary main_v3 main_v94 main_v95 (cmpi .slt : (⟨S3000000, .i32⟩ : BufTy).Contents (Elt F) → (⟨S3000000, .i32⟩ : BufTy).Contents (Elt F) → (⟨S3000000, .i1⟩ : BufTy).Contents (Elt F)),
    nullary main_c_28 (constantI S_ 32 1000000#32),
    unary main_c_28 main_v96 (broadcastInDim S3000000 ![] bcast_S_S3000000 : (⟨S_, .i32⟩ : BufTy).Contents (Elt F) → (⟨S3000000, .i32⟩ : BufTy).Contents (Elt F)),
    binary main_v3 main_v96 main_v97 (addi : (⟨S3000000, .i32⟩ : BufTy).Contents (Elt F) → (⟨S3000000, .i32⟩ : BufTy).Contents (Elt F) → (⟨S3000000, .i32⟩ : BufTy).Contents (Elt F)),
    ternary main_v95 main_v97 main_v3 main_v98 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v98 main_v99 (broadcastInDim S3000000x1 ![0] bcast_S3000000_S3000000x1_0 : (⟨S3000000, .i32⟩ : BufTy).Contents (Elt F) → (⟨S3000000x1, .i32⟩ : BufTy).Contents (Elt F)),
    binary main_v60 main_v99 main_v100 ((fun x i => Host.gather gather_S1000000x3_S3000000x1_S3000000x3_1_0_n_n_0_1_13 x i) : (⟨S1000000x3, .f32⟩ : BufTy).Contents (Elt F) → (⟨S3000000x1, .i32⟩ : BufTy).Contents (Elt F) → (⟨S3000000x3, .f32⟩ : BufTy).Contents (Elt F)),
    binary main_v93 main_v100 main_v101 (subf : (⟨S3000000x3, .f32⟩ : BufTy).Contents (Elt F) → (⟨S3000000x3, .f32⟩ : BufTy).Contents (Elt F) → (⟨S3000000x3, .f32⟩ : BufTy).Contents (Elt F)),
    unary main_v86 main_v102 (broadcastInDim S3000000x3 ![0, 1] bcast_S3000000x1_S3000000x3_0_1 : (⟨S3000000x1, .f32⟩ : BufTy).Contents (Elt F) → (⟨S3000000x3, .f32⟩ : BufTy).Contents (Elt F)),
    binary main_v102 main_v101 main_v103 (mulf : (⟨S3000000x3, .f32⟩ : BufTy).Contents (Elt F) → (⟨S3000000x3, .f32⟩ : BufTy).Contents (Elt F) → (⟨S3000000x3, .f32⟩ : BufTy).Contents (Elt F)),
    nullary main_cst_29 (constant S_ .f32 0x00000000#32),
    unary main_cst_29 main_v104 (broadcastInDim S1000000x3 ![] bcast_S_S1000000x3 : (⟨S_, .f32⟩ : BufTy).Contents (Elt F) → (⟨S1000000x3, .f32⟩ : BufTy).Contents (Elt F)),
    unary main_v3 main_v105 (broadcastInDim S3000000x1 ![0] bcast_S3000000_S3000000x1_0 : (⟨S3000000, .i32⟩ : BufTy).Contents (Elt F) → (⟨S3000000x1, .i32⟩ : BufTy).Contents (Elt F)),
    ternary main_v104 main_v105 main_v103 main_v106 ((fun x i u => Host.scatterAdd scatter_S1000000x3_S3000000x1_S3000000x3_1_0_0_1 x i u) : (⟨S1000000x3, .f32⟩ : BufTy).Contents (Elt F) → (⟨S3000000x1, .i32⟩ : BufTy).Contents (Elt F) → (⟨S3000000x3, .f32⟩ : BufTy).Contents (Elt F) → (⟨S1000000x3, .f32⟩ : BufTy).Contents (Elt F)),
    binary main_v55 main_v106 main_v107 (addf : (⟨S1000000x3, .f32⟩ : BufTy).Contents (Elt F) → (⟨S1000000x3, .f32⟩ : BufTy).Contents (Elt F) → (⟨S1000000x3, .f32⟩ : BufTy).Contents (Elt F)) ]

/-! ## What each stretch computes, from arbitrary contents -/

attribute [local irreducible] Host.scatterAdd Host.gather Host.rsqrt in
/-- The first row, flattened, is the source row. -/
theorem edges_sources (W : Valuation τ sig (Elt F)) :
    after edges W (Proc.devRef .tc main_v1) = Cert.MeshSpec.sources (W (Proc.devRef .tc main_arg1)) := by
  after_results_simp
  rfl

attribute [local irreducible] Host.scatterAdd Host.gather Host.rsqrt in
/-- The second row, flattened, is the target row. -/
theorem edges_targets (W : Valuation τ sig (Elt F)) :
    after edges W (Proc.devRef .tc main_v3) = Cert.MeshSpec.targets (W (Proc.devRef .tc main_arg1)) := by
  after_results_simp
  rfl

attribute [local irreducible] Host.scatterAdd Host.gather Host.rsqrt in
/-- The first perceptron's value: the outlined rectifier's operations read and write through type equations that are
    identities at these buffers, so the composed term is the specification's by computation. -/
theorem percA_value (W : Valuation τ sig (Elt F)) :
    after percA W (Proc.devRef .tc main_v8)
      = Cert.MeshSpec.perceptron (W (Proc.devRef .tc main_arg0)) (W (Proc.devRef .tc main_arg2)) (W (Proc.devRef .tc main_arg3)) (W (Proc.devRef .tc main_arg4)) := by
  after_results_simp
  rfl

attribute [local irreducible] Host.scatterAdd Host.gather Host.rsqrt in
/-- The first layer's edge weights. -/
theorem weightA_value (W : Valuation τ sig (Elt F)) :
    after weightA W (Proc.devRef .tc main_v33) = Cert.MeshSpec.edgeWeight (W (Proc.devRef .tc main_v1)) (W (Proc.devRef .tc main_v3)) := by
  after_results_simp
  rfl

attribute [local irreducible] Host.scatterAdd Host.gather Host.rsqrt in
/-- The first layer's move. -/
theorem tailA_value (W : Valuation τ sig (Elt F)) :
    after tailA W (Proc.devRef .tc main_v55)
      = Cert.MeshSpec.moved (W (Proc.devRef .tc main_arg0)) (W (Proc.devRef .tc main_v8)) (W (Proc.devRef .tc main_v1)) (W (Proc.devRef .tc main_v3)) (W (Proc.devRef .tc main_v33)) := by
  after_results_simp
  rfl

attribute [local irreducible] Host.scatterAdd Host.gather Host.rsqrt in
/-- The second perceptron's value. -/
theorem percB_value (W : Valuation τ sig (Elt F)) :
    after percB W (Proc.devRef .tc main_v60)
      = Cert.MeshSpec.perceptron (W (Proc.devRef .tc main_v55)) (W (Proc.devRef .tc main_arg5)) (W (Proc.devRef .tc main_arg6)) (W (Proc.devRef .tc main_arg7)) := by
  after_results_simp
  rfl

attribute [local irreducible] Host.scatterAdd Host.gather Host.rsqrt in
/-- The second layer's edge weights: the same function of the same two rows. -/
theorem weightB_value (W : Valuation τ sig (Elt F)) :
    after weightB W (Proc.devRef .tc main_v85) = Cert.MeshSpec.edgeWeight (W (Proc.devRef .tc main_v1)) (W (Proc.devRef .tc main_v3)) := by
  after_results_simp
  rfl

attribute [local irreducible] Host.scatterAdd Host.gather Host.rsqrt in
/-- The second layer's move. -/
theorem tailB_value (W : Valuation τ sig (Elt F)) :
    after tailB W (Proc.devRef .tc main_v107)
      = Cert.MeshSpec.moved (W (Proc.devRef .tc main_v55)) (W (Proc.devRef .tc main_v60)) (W (Proc.devRef .tc main_v1)) (W (Proc.devRef .tc main_v3)) (W (Proc.devRef .tc main_v85)) := by
  after_results_simp
  rfl

/-! ## What each stretch leaves alone: every buffer is written once, by the operation that defines it -/

/-- The slices write four buffers of their own: the coordinates and the six weight matrices stay. -/
theorem edges_keeps (W : Valuation τ sig (Elt F)) :
    after edges W (Proc.devRef .tc main_arg0) = W (Proc.devRef .tc main_arg0)
    ∧ after edges W (Proc.devRef .tc main_arg2) = W (Proc.devRef .tc main_arg2)
    ∧ after edges W (Proc.devRef .tc main_arg3) = W (Proc.devRef .tc main_arg3)
    ∧ after edges W (Proc.devRef .tc main_arg4) = W (Proc.devRef .tc main_arg4)
    ∧ after edges W (Proc.devRef .tc main_arg5) = W (Proc.devRef .tc main_arg5)
    ∧ after edges W (Proc.devRef .tc main_arg6) = W (Proc.devRef .tc main_arg6)
    ∧ after edges W (Proc.devRef .tc main_arg7) = W (Proc.devRef .tc main_arg7) := by
  refine ⟨?_, ?_, ?_, ?_, ?_, ?_, ?_⟩ <;> after_results_simp

/-- The first perceptron leaves the coordinates, the two rows and the second layer's matrices. -/
theorem percA_keeps (W : Valuation τ sig (Elt F)) :
    after percA W (Proc.devRef .tc main_arg0) = W (Proc.devRef .tc main_arg0)
    ∧ after percA W (Proc.devRef .tc main_v1) = W (Proc.devRef .tc main_v1)
    ∧ after percA W (Proc.devRef .tc main_v3) = W (Proc.devRef .tc main_v3)
    ∧ after percA W (Proc.devRef .tc main_arg5) = W (Proc.devRef .tc main_arg5)
    ∧ after percA W (Proc.devRef .tc main_arg6) = W (Proc.devRef .tc main_arg6)
    ∧ after percA W (Proc.devRef .tc main_arg7) = W (Proc.devRef .tc main_arg7) := by
  refine ⟨?_, ?_, ?_, ?_, ?_, ?_⟩ <;> after_results_simp

/-- The first weights leave the coordinates, the perceptron's value, the two rows and the second layer's matrices. -/
theorem weightA_keeps (W : Valuation τ sig (Elt F)) :
    after weightA W (Proc.devRef .tc main_arg0) = W (Proc.devRef .tc main_arg0)
    ∧ after weightA W (Proc.devRef .tc main_v8) = W (Proc.devRef .tc main_v8)
    ∧ after weightA W (Proc.devRef .tc main_v1) = W (Proc.devRef .tc main_v1)
    ∧ after weightA W (Proc.devRef .tc main_v3) = W (Proc.devRef .tc main_v3)
    ∧ after weightA W (Proc.devRef .tc main_arg5) = W (Proc.devRef .tc main_arg5)
    ∧ after weightA W (Proc.devRef .tc main_arg6) = W (Proc.devRef .tc main_arg6)
    ∧ after weightA W (Proc.devRef .tc main_arg7) = W (Proc.devRef .tc main_arg7) := by
  refine ⟨?_, ?_, ?_, ?_, ?_, ?_, ?_⟩ <;> after_results_simp

/-- The first move leaves the two rows and the second layer's matrices. -/
theorem tailA_keeps (W : Valuation τ sig (Elt F)) :
    after tailA W (Proc.devRef .tc main_v1) = W (Proc.devRef .tc main_v1)
    ∧ after tailA W (Proc.devRef .tc main_v3) = W (Proc.devRef .tc main_v3)
    ∧ after tailA W (Proc.devRef .tc main_arg5) = W (Proc.devRef .tc main_arg5)
    ∧ after tailA W (Proc.devRef .tc main_arg6) = W (Proc.devRef .tc main_arg6)
    ∧ after tailA W (Proc.devRef .tc main_arg7) = W (Proc.devRef .tc main_arg7) := by
  refine ⟨?_, ?_, ?_, ?_, ?_⟩ <;> after_results_simp

/-- The second perceptron leaves the moved coordinates and the two rows. -/
theorem percB_keeps (W : Valuation τ sig (Elt F)) :
    after percB W (Proc.devRef .tc main_v55) = W (Proc.devRef .tc main_v55)
    ∧ after percB W (Proc.devRef .tc main_v1) = W (Proc.devRef .tc main_v1)
    ∧ after percB W (Proc.devRef .tc main_v3) = W (Proc.devRef .tc main_v3) := by
  refine ⟨?_, ?_, ?_⟩ <;> after_results_simp

/-- The second weights leave the moved coordinates, the perceptron's value and the two rows. -/
theorem weightB_keeps (W : Valuation τ sig (Elt F)) :
    after weightB W (Proc.devRef .tc main_v55) = W (Proc.devRef .tc main_v55)
    ∧ after weightB W (Proc.devRef .tc main_v60) = W (Proc.devRef .tc main_v60)
    ∧ after weightB W (Proc.devRef .tc main_v1) = W (Proc.devRef .tc main_v1)
    ∧ after weightB W (Proc.devRef .tc main_v3) = W (Proc.devRef .tc main_v3) := by
  refine ⟨?_, ?_, ?_, ?_⟩ <;> after_results_simp

/-! ## The line's side conditions: every operation touches TensorCore references only and determines its result -/

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- No operation of either list leaves its result to chance, so none of their concatenation does. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

theorem edges_sub : (edges : List (HloOp τ sig (Elt F))).Forall fun op => op.bufs ⊆ tcRefs τ sig :=
  ⟨unary_bufs_sub .., reshape_bufs_sub .., unary_bufs_sub .., reshape_bufs_sub ..⟩

theorem edges_fresh : ∀ op ∈ (edges : List (HloOp τ sig (Elt F))), op.fresh = ∅ := by
  intro _ h; (repeat (cases h with | head => rfl | tail _ h => ?_)); exact nomatch h

theorem percA_sub : (percA : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub ..⟩

theorem percA_fresh : ∀ op ∈ (percA : List (HloOp τ sig (Elt F))), op.fresh = ∅ := by
  intro _ h; (repeat (cases h with | head => rfl | tail _ h => ?_)); exact nomatch h

theorem weightA_sub : (weightA : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..⟩

theorem weightA_fresh : ∀ op ∈ (weightA : List (HloOp τ sig (Elt F))), op.fresh = ∅ := by
  intro _ h; (repeat (cases h with | head => rfl | tail _ h => ?_)); exact nomatch h

theorem tailA_sub : (tailA : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., binary_bufs_sub .., nullary_bufs_sub .., unary_bufs_sub ..,
    unary_bufs_sub .., ternary_bufs_sub .., binary_bufs_sub ..⟩

theorem tailA_fresh : ∀ op ∈ (tailA : List (HloOp τ sig (Elt F))), op.fresh = ∅ := by
  intro _ h; (repeat (cases h with | head => rfl | tail _ h => ?_)); exact nomatch h

theorem percB_sub : (percB : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub ..⟩

theorem percB_fresh : ∀ op ∈ (percB : List (HloOp τ sig (Elt F))), op.fresh = ∅ := by
  intro _ h; (repeat (cases h with | head => rfl | tail _ h => ?_)); exact nomatch h

theorem weightB_sub : (weightB : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..⟩

theorem weightB_fresh : ∀ op ∈ (weightB : List (HloOp τ sig (Elt F))), op.fresh = ∅ := by
  intro _ h; (repeat (cases h with | head => rfl | tail _ h => ?_)); exact nomatch h

theorem tailB_sub : (tailB : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., binary_bufs_sub .., nullary_bufs_sub .., unary_bufs_sub ..,
    unary_bufs_sub .., ternary_bufs_sub .., binary_bufs_sub ..⟩

theorem tailB_fresh : ∀ op ∈ (tailB : List (HloOp τ sig (Elt F))), op.fresh = ∅ := by
  intro _ h; (repeat (cases h with | head => rfl | tail _ h => ?_)); exact nomatch h

/-! ## The whole line -/

/-- The whole program, in order. -/
abbrev ops : List (HloOp τ sig (Elt F)) :=
  edges ++ (percA ++ (weightA ++ (tailA ++ (percB ++ (weightB ++ tailB)))))

-- some hundred and seventy binds re-associated: the rewrite under the chain recurses once per statement
set_option maxRecDepth 8192 in
set_option maxHeartbeats 4000000 in
/-- The program is that straight line: with the three outlined functions unfolded at their calls and the records at their
    fields, both sides are one chain of single operations once sequencing is reassociated. -/
theorem main_eq (c : Dev nD) : main (F := F) c = seq ops := by
  simp only [main, main_part0, main_part1, main_part2, fn_leaky_relu.body, fn_where.body, fn_where_0.body, ops, edges, percA, weightA,
    tailA, percB, weightB, tailB, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append edges_sub (forall_append percA_sub (forall_append weightA_sub (forall_append tailA_sub
    (forall_append percB_sub (forall_append weightB_sub tailB_sub)))))

theorem ops_fresh : ∀ op ∈ (ops : List (HloOp τ sig (Elt F))), op.fresh = ∅ :=
  fresh_append edges_fresh (fresh_append percA_fresh (fresh_append weightA_fresh (fresh_append tailA_fresh
    (fresh_append percB_fresh (fresh_append weightB_fresh tailB_fresh)))))

/-- Every weakly fair execution of the program terminates, and every buffer ends at the line's fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold at the result buffer: stretch by stretch from the end, each stretch's value in terms of the contents before
    it, each buffer a later stretch reads carried back to the stretch that wrote it. Both degree-and-weight stretches
    come out as the same function of the same two rows. -/
theorem value (V : Valuation τ sig (Elt F)) :
    after ops V (Proc.devRef .tc main_v107)
      = Cert.MeshSpec.twoLayers (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  show after (edges ++ (percA ++ (weightA ++ (tailA ++ (percB ++ (weightB ++ tailB)))))) V _ = _
  rw [Cert.LibAfterAppend.after_append, Cert.LibAfterAppend.after_append, Cert.LibAfterAppend.after_append,
    Cert.LibAfterAppend.after_append, Cert.LibAfterAppend.after_append, Cert.LibAfterAppend.after_append]
  rw [tailB_value, weightB_value, (weightB_keeps _).1, (weightB_keeps _).2.1, (weightB_keeps _).2.2.1, (weightB_keeps _).2.2.2]
  rw [percB_value, (percB_keeps _).1, (percB_keeps _).2.1, (percB_keeps _).2.2]
  rw [tailA_value, (tailA_keeps _).1, (tailA_keeps _).2.1, (tailA_keeps _).2.2.1, (tailA_keeps _).2.2.2.1, (tailA_keeps _).2.2.2.2]
  rw [weightA_value, (weightA_keeps _).1, (weightA_keeps _).2.1, (weightA_keeps _).2.2.1, (weightA_keeps _).2.2.2.1, (weightA_keeps _).2.2.2.2.1, (weightA_keeps _).2.2.2.2.2.1, (weightA_keeps _).2.2.2.2.2.2]
  rw [percA_value, (percA_keeps _).1, (percA_keeps _).2.1, (percA_keeps _).2.2.1, (percA_keeps _).2.2.2.1, (percA_keeps _).2.2.2.2.1, (percA_keeps _).2.2.2.2.2]
  rw [edges_sources, edges_targets, (edges_keeps _).1, (edges_keeps _).2.1, (edges_keeps _).2.2.1, (edges_keeps _).2.2.2.1, (edges_keeps _).2.2.2.2.1, (edges_keeps _).2.2.2.2.2.1, (edges_keeps _).2.2.2.2.2.2]
  rfl

-- one pass over the whole line per argument array: some hundred and seventy inequalities of references each
set_option maxHeartbeats 2000000 in
/-- No operation writes an argument array. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  refine ⟨?_, ?_, ?_, ?_, ?_, ?_, ?_, ?_⟩ <;>
    (simp only [ops, Cert.LibAfterAppend.after_append]; after_results_simp)

/-- At the compiled mesh, for any float values, from any memory with zero counters: every weakly fair execution of the
    reference program terminates with the result buffer at the two layers of the launch contents of the eight argument
    arrays, and those arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107)
        = Cert.MeshSpec.twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v107).trans (value _),
      (h c main_arg0).trans (args_kept _).1,
      (h c main_arg1).trans (args_kept _).2.1,
      (h c main_arg2).trans (args_kept _).2.2.1,
      (h c main_arg3).trans (args_kept _).2.2.2.1,
      (h c main_arg4).trans (args_kept _).2.2.2.2.1,
      (h c main_arg5).trans (args_kept _).2.2.2.2.2.1,
      (h c main_arg6).trans (args_kept _).2.2.2.2.2.2.1,
      (h c main_arg7).trans (args_kept _).2.2.2.2.2.2.2⟩)
    (run_main m ρ)

end Cert.ReferenceIdeal.RefRun

end
-- ==== Proof.lean ====
/-
  The proof of `Cert.Claim`: a kernel program and a jnp reference compute the same two mesh layers.

  Both programs take a vertex array (a million vertices, three coordinates each), a table of three million directed
  edges and six weight matrices. A layer applies a small bias-free perceptron (3 → 16 → 16 → 3, leaky rectifier with
  slope 0.01) to every vertex and moves each vertex by the sum over its incoming edges of
  weight · (perceptron at the source − perceptron at the target), the weight of an edge being the product of its two
  ends' inverse square-root in-degrees (0 at a vertex no edge enters). The reference evaluates the perceptron by three
  whole-array matrix products; the kernel program evaluates it in a launch over 125 blocks of 8000 vertices, each block
  by the same three products of that block with the whole weight matrices, and computes the edge weights once for both
  layers where the reference computes them once per layer. Over the extended reals a change of float format is the
  identity and every product is the exact sum over the contracted index, so row by row the two perceptrons are the same
  sum, and everything around them is the same composition of whole-array operations (Proof/MeshSpec.lean): no
  algebraic law beyond that, and no use of the inputs' finiteness.

  The pieces: Proof/ResultRun.lean (the idealized kernel program runs, its result buffer at the last boundary of its
  chain of host stretches and launches), Proof/LaunchValue.lean (a launch's output array is the perceptron of its
  operands), Proof/Stretches.lean and Proof/ResultValue.lean (the last boundary's result is the two layers of the
  arguments), Proof/RefRun.lean (the reference runs and ends at the two layers of its arguments). The frames of the two
  kernel programs are the generated ones; the reference's is its run with the result dropped. The ideal pass rewrote
  nothing, so the idealization claim is trivial.
-/
import proofs.«171633_j8177617732323_2_alg».proof.Defs
import proofs.«171633_j8177617732323_2_alg».proof.Proof.Gen.Kernel
import proofs.«171633_j8177617732323_2_alg».proof.Proof.Gen.Kernel.Skeleton
import proofs.«171633_j8177617732323_2_alg».proof.Proof.Gen.Kernel.Launch
import proofs.«171633_j8177617732323_2_alg».proof.Proof.Gen.Kernel.Points
import proofs.«171633_j8177617732323_2_alg».proof.Proof.Gen.Kernel.Frame
import proofs.«171633_j8177617732323_2_alg».proof.Proof.Gen.KernelIdeal
import proofs.«171633_j8177617732323_2_alg».proof.Proof.Gen.KernelIdeal.Skeleton
import proofs.«171633_j8177617732323_2_alg».proof.Proof.Gen.KernelIdeal.Launch
import proofs.«171633_j8177617732323_2_alg».proof.Proof.Gen.KernelIdeal.Points
import proofs.«171633_j8177617732323_2_alg».proof.Proof.Gen.KernelIdeal.Frame
import proofs.«171633_j8177617732323_2_alg».proof.Proof.Gen.ReferenceIdeal
import proofs.«171633_j8177617732323_2_alg».proof.Proof.Gen.Pre_finite_inputs
import proofs.«171633_j8177617732323_2_alg».proof.Proof.ResultRun
import proofs.«171633_j8177617732323_2_alg».proof.Proof.ResultValue
import proofs.«171633_j8177617732323_2_alg».proof.Proof.LaunchValue
import proofs.«171633_j8177617732323_2_alg».proof.Proof.RefRun
import Idealize.ShloMosaic.Adequacy
import Idealize.ShloMosaic.Init

noncomputable section

namespace Cert.Proof.MeshClaims

open Idealize.ShloMosaic Idealize.ShloMosaic.TcCoe Idealize.SL.Sem

/-- The word-level kernel program runs and leaves its arguments as launched: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote nothing in the kernel program. -/
theorem preserves : Cert.preserves_Kernel_KernelIdeal := trivial

/-- Over the extended reals both programs end with the two mesh layers of the arguments in their result arrays: the
    kernel program by its run to the last boundary and that boundary's value, the reference by its run; the argument
    arrays agree, so the two results are one array. -/
theorem algebraic : Cert.algebraic_KernelIdeal_ReferenceIdeal := by
  intro m ρ m' ρ' _ hagree
  refine ⟨fun c => Cert.MeshSpec.twoLayers (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ResultValue.result_value m ρ Cert.KernelIdeal.LaunchValue.launch0_value Cert.KernelIdeal.LaunchValue.launch1_value c), (h c).2⟩)
      (Cert.KernelIdeal.ResultRun.run_valued (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]

end Cert.Proof.MeshClaims

namespace Cert.Proof

theorem claim : Cert.Claim :=
  ⟨Cert.Kernel.Gen.facts, Cert.KernelIdeal.Gen.facts, Cert.ReferenceIdeal.Gen.facts, Cert.Pre_finite_inputs.Gen.facts,
    MeshClaims.frame_kernel, MeshClaims.frame_kernel_ideal, MeshClaims.frame_reference, MeshClaims.preserves,
    MeshClaims.algebraic⟩

end Cert.Proof

end
